-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 22
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x256, .bf16⟩
  | .hbm, ⟨14, _⟩ => ⟨S1x8192, .f32⟩
  | .hbm, ⟨15, _⟩ => ⟨S8192x1, .i32⟩
  | .hbm, ⟨16, _⟩ => ⟨S1x8192, .i32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | .local _ .vmem, ⟨5, _⟩ => ⟨S1x8192, .f32⟩
  | .local _ .vmem, ⟨6, _⟩ => ⟨S1024x1, .i32⟩
  | .local _ .vmem, ⟨7, _⟩ => ⟨S1024x1, .i32⟩
  | .local _ .vmem, ⟨8, _⟩ => ⟨S1x8192, .i32⟩
  | .local _ .vmem, ⟨9, _⟩ => ⟨S1024x1, .f32⟩
  | .local _ .vmem, ⟨10, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v20 : BitVec 32 := Scalar.muli arg8 c1024_i32
  v20
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1024_i32 : BitVec 32 := 1024#32
  let v20 : BitVec 32 := Scalar.muli arg8 c1024_i32
  let v21 : BitVec 32 := v20
  let v22 : Index := Scalar.indexCast v21
  let c0_13 : Index := 0#32
  ![v22.toNat, 0]
def k0_off2 (k0_t1 : Fin k0_t1_loop.trips) : Fin 2 → Nat :=
  let c0_14 : Index := 0#32
  let c0_i32 : BitVec 32 := 0#32
  let c1_i32 : BitVec 32 := 1#32
  let arg8 : BitVec 32 := Scf.iv c0_i32 c1_i32 k0_t1
  let c1024_i32 : BitVec 32 := 1024#32
  let v20 : BitVec 32 := Scalar.muli arg8 c1024_i32
  let v21 : BitVec 32 := v20
  let v25 : Index := Scalar.indexCast v21
  ![0, v25.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192x1_S1x8192 : S8192x1.ShapeCasts S1x8192
  shapeCasts_S8192_S8192x1 : S8192.ShapeCasts S8192x1
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x256.size a ≤ S8192x256.size a
  k0_off2_inb : ∀ k0_t1 : Fin k0_t1_loop.trips, ∀ a, (k0_off2 k0_t1) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v9) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 53
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x256, .f32⟩
  | .hbm, ⟨8, _⟩ => ⟨S8192x256, .f32⟩
  | .hbm, ⟨9, _⟩ => ⟨S8192x256, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S256x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call1_v0 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_call2_v0 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_call3_cst : Ref sig .tc := ⟨.hbm, 46, rfl⟩
abbrev main_call3_v0 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBody.lean ====
/-
  The kernel body at one grid point, and the pipeline's proof data.

  One grid point handles a tile of 1024 rows. The body reads the tile's normalised rows, squared norms and labels, then
  walks the whole matrix of 8192 normalised rows in eight chunks of 1024 columns, carrying for every row of the tile the
  running maximum of the same-label distances and the running minimum of the other-label distances; after the last
  chunk it clips both from below, forms `max (pos - neg + margin) 0` and stores the tile's 1024 losses. Nothing but the
  output tile is written: every input buffer is handed back as it was found.

  The matrix of normalised rows is handed to the kernel twice — tile by tile and whole — so two windows stand on one
  array; the proof data deals that array's ownership between them in two halves.
-/
import proofs.«165385_j16406775070902_2_alg».proof.Proof.Gen.Kernel.Launch
import proofs.«165385_j16406775070902_2_alg».proof.Proof.Gen.Kernel.Skeleton
import proofs.«165385_j16406775070902_2_alg».proof.Proof.Gen.Kernel.Points
import proofs.«165385_j16406775070902_2_alg».proof.Proof.Gen.Kernel.Loops
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m ρ c (Pipeline.arrRef spec0 5))
    (hafter : ∀ t, dat.after 5 t = iblk m ρ c 5 t) (t : Fin cfg0.N) (d) : dat.before 5 t d = iblk m ρ c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile -/

/-- The whole-tile rectangle of the one store. -/
abbrev r6 : Rect S1024x1 := Rect.unit (s := S1024x1) ![0, 0] S1024x1.size inb_S1024x1_S1024x1_0_0

/-- The pair (running maximum, running minimum) after the eight chunks, from the contents of the six input buffers:
    the loop's carried value, by the recursion on its trips. -/
def carried (c : Dev nD) (i : grid0.Coords) (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec F S1024x256 .bf16) (x1 : Vec F S8192x256 .bf16) (x2 : Vec F S1024x1 .f32) (x3 : Vec F S1x8192 .f32)
    (x4 : Vec F S1024x1 .i32) (x5 : Vec F S1x8192 .i32) : FVec F S1024x1 .f32 × FVec F S1024x1 .f32 :=
  st_k0_t1 (F := F) Variants.none c none i arg1 harg1 arg2 harg2 arg3 harg3 arg4 harg4 arg5 harg5 arg6 harg6 arg7 harg7
    (View.readAt (Elt F) arg1.view (Rect.unit (s := S1024x256) ![0, 0] S1024x256.size inb_S1024x256_S1024x256_0_0).toLoadRect (harg1.unread x0))
    (View.readAt (Elt F) arg3.view (Rect.unit (s := S1024x1) ![0, 0] S1024x1.size inb_S1024x1_S1024x1_0_0).toLoadRect (harg3.unread x2))
    (View.readAt (Elt F) arg5.view (Rect.unit (s := S1024x1) ![0, 0] S1024x1.size inb_S1024x1_S1024x1_0_0).toLoadRect (harg5.unread x4))
    (harg2.unread x1) (harg4.unread x3) (harg6.unread x5) (k0_pay1, k0_pay2) (Scf.trips k0_t1_loop.lb k0_t1_loop.ub k0_t1_loop.st)

/-- The output buffer after the body: its one store, of the losses computed from the carried pair. -/
def out0_6 (c : Dev nD) (i : grid0.Coords) (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec F S1024x256 .bf16) (x1 : Vec F S8192x256 .bf16) (x2 : Vec F S1024x1 .f32) (x3 : Vec F S1x8192 .f32)
    (x4 : Vec F S1024x1 .i32) (x5 : Vec F S1x8192 .i32) : Vec F S1024x1 .f32 :=
  View.canon [⟨r6, k0_pay7 (carried c i arg1 harg1 arg2 harg2 arg3 harg3 arg4 harg4 arg5 harg5 arg6 harg6 arg7 harg7 x0 x1 x2 x3 x4 x5).1 (carried c i arg1 harg1 arg2 harg2 arg3 harg3 arg4 harg4 arg5 harg5 arg6 harg6 arg7 harg7 x0 x1 x2 x3 x4 x5).2⟩]

/-- The store covers the buffer. -/
theorem cover0_6 (p0 : Vec F S1024x1 .f32) (y : S1024x1.Idx) :
    ∃ pc ∈ ([⟨r6, p0⟩] : List (View.Piece (Elt F) S1024x1 .f32)), y ∈ pc.1.set :=
  View.cover_of_tiled [⟨r6, p0⟩] S1024x1.size (by rfl) y

/-! ## The body's triple -/

set_option maxHeartbeats 2000000 in
/-- The body on whole staging buffers, the inputs' at contents `xW` and the output's at anything, runs to the
    continuation holding the inputs' as they were and the output's at `out0_6` of the inputs'. -/
theorem sound_kernel (c : Dev nD) (E : Set ℕ) (i : grid0.Coords) (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec F S1024x256 .bf16) (x1 : Vec F S8192x256 .bf16) (x2 : Vec F S1024x1 .f32) (x3 : Vec F S1x8192 .f32)
    (x4 : Vec F S1024x1 .i32) (x5 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 c i arg1 harg1 arg2 harg2 arg3 harg3 arg4 harg4 arg5 harg5 arg6 harg6 arg7 harg7 x0 x1 x2 x3 x4 x5)) -∗ K ⟨⟩))
      ⊢ wp frame (wpE (defs₀ (F := F)) Variants.none c none) E (cc0__mining_kernel i arg1 harg1 arg2 harg2 arg3 harg3 arg4 harg4 arg5 harg5 arg6 harg6 arg7 harg7) K := by
  simp only [cc0__mining_kernel_eq_skeleton]; unfold cc0__mining_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  have e0 := harg1.eq_unread hf0
  have e1 := harg2.eq_unread hf1
  have e2 := harg3.eq_unread hf2
  have e3 := harg4.eq_unread hf3
  have e4 := harg5.eq_unread hf4
  have e5 := harg6.eq_unread hf5
  subst e0 e1 e2 e3 e4 e5
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  exact View.read_writes_eq_canon _ _ _ (cover0_6 _)

/-! ## The pipeline's proof data -/

/-- The proof data on core `c`: the arrays as the region finds them; after the body at point `t` each input's
    buffer at its block and the output's at `out0_6` of the input blocks; the invariant the scoped buffers no window
    stages; nothing owed; the array of normalised rows held in two halves by the two windows on it, every other
    array whole. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => out0_6 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m ρ c 0 t) (iblk m ρ c 1 t) (iblk m ρ c 2 t) (iblk m ρ c 3 t) (iblk m ρ c 4 t) (iblk m ρ c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) : (dats m ρ 0 c).after 4 t = iblk m ρ c 4 t := by dsimp only [dats]
theorem after0_5 (c : Dev nD) (t : Fin cfg0.N) : (dats m ρ 0 c).after 5 t = iblk m ρ c 5 t := by dsimp only [dats]
theorem after0_6 (c : Dev nD) (t : Fin cfg0.N) : (dats m ρ 0 c).after 6 t
    = out0_6 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m ρ c 0 t) (iblk m ρ c 1 t) (iblk m ρ c 2 t) (iblk m ρ c 3 t) (iblk m ρ c 4 t) (iblk m ρ c 5 t) := by dsimp only [dats]

theorem before0_0 (c : Dev nD) (t : Fin cfg0.N) (d) : (dats m ρ 0 c).before 0 t d = iblk m ρ c 0 t :=
  before0_0_of m ρ (dats m ρ 0 c) (A_eq m ρ c 0) (after0_0 m ρ c) t d
theorem before0_1 (c : Dev nD) (t : Fin cfg0.N) (d) : (dats m ρ 0 c).before 1 t d = iblk m ρ c 1 t :=
  before0_1_of m ρ (dats m ρ 0 c) (A_eq m ρ c 1) (after0_1 m ρ c) t d
theorem before0_2 (c : Dev nD) (t : Fin cfg0.N) (d) : (dats m ρ 0 c).before 2 t d = iblk m ρ c 2 t :=
  before0_2_of m ρ (dats m ρ 0 c) (A_eq m ρ c 2) (after0_2 m ρ c) t d
theorem before0_3 (c : Dev nD) (t : Fin cfg0.N) (d) : (dats m ρ 0 c).before 3 t d = iblk m ρ c 3 t :=
  before0_3_of m ρ (dats m ρ 0 c) (A_eq m ρ c 3) (after0_3 m ρ c) t d
theorem before0_4 (c : Dev nD) (t : Fin cfg0.N) (d) : (dats m ρ 0 c).before 4 t d = iblk m ρ c 4 t :=
  before0_4_of m ρ (dats m ρ 0 c) (A_eq m ρ c 4) (after0_4 m ρ c) t d
theorem before0_5 (c : Dev nD) (t : Fin cfg0.N) (d) : (dats m ρ 0 c).before 5 t d = iblk m ρ c 5 t :=
  before0_5_of m ρ (dats m ρ 0 c) (A_eq m ρ c 5) (after0_5 m ρ c) t d

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

/-- The body at any point: the inputs' buffers hold their blocks, so the triple applies; the invariant and the core's
    debts pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3, before0_4, before0_5]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m ρ c 0 t) (iblk m ρ c 1 t) (iblk m ρ c 2 t) (iblk m ρ c 3 t) (iblk m ρ c 4 t) (iblk m ρ c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Hand

end
-- ==== Proof.KRun.lean ====
/-
  The launch: @main as a stretch of host operations, the kernel region, and a second stretch of host operations.

  The host operations before the region normalise the rows and prepare the kernel's six operands; the region runs the
  body at the eight grid points; the host operations after it sum the 8192 row losses and divide by 8192. The matrix of
  normalised rows stands behind two of the region's windows, so at the region's entry its buffer's ownership is dealt in
  two halves, one per window, and at the exit the halves are joined again; every other array goes in and comes out whole.
-/
import proofs.«165385_j16406775070902_2_alg».proof.Proof.Gen.Kernel.Launch
import proofs.«165385_j16406775070902_2_alg».proof.Proof.Gen.Kernel.Skeleton
import proofs.«165385_j16406775070902_2_alg».proof.Proof.Gen.Kernel.Points
import proofs.«165385_j16406775070902_2_alg».proof.Proof.Gen.Kernel.Loops
import proofs.«165385_j16406775070902_2_alg».proof.Proof.KBody
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: the core's debts, none. -/
abbrev R (c : Dev nD) : sProp 𝕄 := iprop(∃ W, owes (c : Thread nD τ) (0 : CellTallies nD τ sig Unit) W)

/-! ## The windows' arrays, listed -/

/-- The six distinct buffers behind the seven windows' arrays, each whole. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_v8) ↦{fullShare} W main_v8) ∗ (((c : Thread nD τ).loc main_v10) ↦{fullShare} W main_v10) ∗ (((c : Thread nD τ).loc main_v11) ↦{fullShare} W main_v11) ∗ (((c : Thread nD τ).loc main_v12) ↦{fullShare} W main_v12) ∗ (((c : Thread nD τ).loc main_v13) ↦{fullShare} W main_v13)) := by
  unfold Pipeline.arrBufs
  exact bigSep_eq_bigSepL_of_eq [main_v9, main_v8, main_v10, main_v11, main_v12, main_v13] (by decide) (by decide) _

/-- The proof data's arrays, window by window: the matrix of normalised rows in two halves, the rest whole. -/
theorem arrays0_eq (c : Dev nD) (Fs : (w : Fin cfg0.W) → Buf (Elt F) ((cfg0.win w).arr.view.loc (c : Thread nD τ))) :
    ((dats m ρ 0 c).arrays Fs : sProp 𝕄)
      = iprop((((c : Thread nD τ).loc main_v9) ↦{fullShare.left} Fs 0) ∗ (((c : Thread nD τ).loc main_v9) ↦{fullShare.right} Fs 1)
          ∗ (((c : Thread nD τ).loc main_v8) ↦{fullShare} Fs 2) ∗ (((c : Thread nD τ).loc main_v10) ↦{fullShare} Fs 3)
          ∗ (((c : Thread nD τ).loc main_v11) ↦{fullShare} Fs 4) ∗ (((c : Thread nD τ).loc main_v12) ↦{fullShare} Fs 5)
          ∗ (((c : Thread nD τ).loc main_v13) ↦{fullShare} Fs 6)) := by
  unfold Dat.arrays
  rw [show (bigSep Finset.univ fun w : Fin cfg0.W => ((cfg0.win w).arr.view.loc (c : Thread nD τ) ↦[(cfg0.win w).arr.view.set]{(dats m ρ 0 c).share w} Fs w : sProp 𝕄))
        = bigSep Finset.univ fun w : Fin cfg0.W => ((cfg0.win w).arr.view.loc (c : Thread nD τ) ↦{(dats m ρ 0 c).share w} Fs w : sProp 𝕄) from
      bigSep_congr fun w _ => by rw [(arr_whole0 w).set_eq_univ]]
  rw [bigSep_W0]
  rfl

/-- ENTRY: the six buffers, whole, make the proof data's arrays at their entry contents. -/
theorem deal (c : Dev nD) :
    (Pipeline.arrBufs (Ix := Unit) (Name := ℕ) (U := UR sig nD τ) (Lvl := ℕ) spec0 c (V m ρ c) : sProp 𝕄)
      ⊢ (dats m ρ 0 c).arrays ((dats m ρ 0 c).arrAt · 0) := by
  rw [arrBufs0_eq, arrays0_eq]
  iintro ⟨H9, H8, H10, H11, H12, H13⟩
  ihave H := (pointsTo_share (PosShare.mem_left_op_right fullShare)).1 $$ H9
  icases H with ⟨H9l, H9r⟩
  isplitl [H9l]; · iexact H9l
  isplitl [H9r]; · iexact H9r
  isplitl [H8]; · iexact H8
  isplitl [H10]; · iexact H10
  isplitl [H11]; · iexact H11
  isplitl [H12]; · iexact H12
  iexact H13

/-- The buffers when the region is left: the result's at what the write-backs left, the others as they were found. -/
def V₁ (c : Dev nD) : Valuation τ sig (Elt F) :=
  Function.update (StableHlo.after hostOps0 (V₀ m ρ c)) (Proc.devRef .tc main_v13) ((dats m ρ 0 c).arrAt 6 cfg0.N)

theorem V₁_out (c : Dev nD) : V₁ m ρ c (Proc.devRef .tc main_v13) = (dats m ρ 0 c).arrAt 6 cfg0.N := by
  unfold V₁; rw [Function.update_self]

theorem V₁_of_ne (c : Dev nD) (b : Ref sig .tc) (hb : b ≠ main_v13) : V₁ m ρ c (Proc.devRef .tc b) = V m ρ c b := by
  unfold V₁; rw [Function.update_of_ne (fun h => hb (Proc.devRef_injective _ h))]

/-- EXIT: the proof data's arrays at their final contents make the six buffers, whole, at the exit valuation. -/
theorem gather (c : Dev nD) :
    ((dats m ρ 0 c).arrays ((dats m ρ 0 c).arrAt · cfg0.N) : sProp 𝕄)
      ⊢ Pipeline.arrBufs (Ix := Unit) (Name := ℕ) (U := UR sig nD τ) (Lvl := ℕ) spec0 c (fun b => V₁ m ρ c b) := by
  rw [arrBufs0_eq, arrays0_eq]
  rw [(dats m ρ 0 c).arrAt_in 0 rfl, (dats m ρ 0 c).arrAt_in 1 rfl, (dats m ρ 0 c).arrAt_in 2 rfl, (dats m ρ 0 c).arrAt_in 3 rfl,
    (dats m ρ 0 c).arrAt_in 4 rfl, (dats m ρ 0 c).arrAt_in 5 rfl]
  rw [V₁_of_ne m ρ c main_v9 (by decide), V₁_of_ne m ρ c main_v8 (by decide), V₁_of_ne m ρ c main_v10 (by decide),
    V₁_of_ne m ρ c main_v11 (by decide), V₁_of_ne m ρ c main_v12 (by decide), V₁_out]
  iintro ⟨H9l, H9r, H8, H10, H11, H12, H13⟩
  isplitl [H9l H9r]
  · iapply (pointsTo_share (PosShare.mem_left_op_right fullShare)).2
    isplitl [H9l]; · iexact H9l
    iexact H9r
  isplitl [H8]; · iexact H8
  isplitl [H10]; · iexact H10
  isplitl [H11]; · iexact H11
  isplitl [H12]; · iexact H12
  iexact H13

/-- Off the windows' arrays the exit valuation is the entry one. -/
theorem rest_eq (c : Dev nD) :
    (Pipeline.unscopedRest (Ix := Unit) (Name := ℕ) (U := UR sig nD τ) (Lvl := ℕ) spec0 c (V m ρ c) : sProp 𝕄)
      = Pipeline.unscopedRest (Ix := Unit) (Name := ℕ) (U := UR sig nD τ) (Lvl := ℕ) spec0 c (fun b => V₁ m ρ c b) := by
  unfold Pipeline.unscopedRest
  exact bigSep_congr fun b hb => by
    dsimp only
    rw [V₁_of_ne m ρ c b (fun h => (Finset.mem_sdiff.mp hb).2 (Finset.mem_image.mpr ⟨6, Finset.mem_univ _, h ▸ rfl⟩))]

/-! ## The segments -/

theorem hfresh0 : ∀ op ∈ (hostOps0 : List (HloOp τ sig (Elt F))), op.fresh = ∅ := by
  intro _ h; (repeat (cases h with | head => rfl | tail _ h => ?_)); exact nomatch h
theorem hfresh1 : ∀ op ∈ (hostOps1 : List (HloOp τ sig (Elt F))), op.fresh = ∅ := by
  intro _ h; (repeat (cases h with | head => rfl | tail _ h => ?_)); exact nomatch h

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hfresh0 (V₀ m ρ) R

/-- The host operations after the region, from the exit valuation. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hfresh1 (V₁ m ρ) R

set_option backward.isDefEq.respectTransparency.types false in
/-- The region: entered from what the first stretch left — the six buffers behind the windows dealt to the pipeline, the
    other unscoped buffers bypassing —, left with the result's buffer at what the write-backs made of it. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Ha, Hr⟩, HO⟩, -, -⟩
    imodintro
    isplitl [Ha]; · iapply (deal m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m ρ 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none (nD := nD) (τ := τ) (sig := sig) (Ix := Unit) (Val := Elt F) (Name := ℕ) (U := UR sig nD τ) (Lvl := ℕ) c,
      show (dats m ρ 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m ρ c) = unscopedBufs c (fun b => V₁ m ρ c b) from (Pipeline.unscopedBufs_held c _).symm,
      Pipeline.unscopedBufs_split₀ cfgs 0 winFacts₀0.arr_unscoped c (fun b => V₁ m ρ c b), ← rest_eq m ρ c]
    iintro ⟨Ha, HO, -, HZ⟩
    imodintro
    isplitr [HO]
    · isplitl [Ha]; · iapply (gather m ρ c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The launch element: the pipeline library's, at the staging cells and the pipeline's transfers. -/
def u₀ : UR sig nD τ := initOf (Pipeline.cells cfgs cellOf_inj) (Pipeline.launchToks cfgs cellOf_inj)

/-- The buffers when @main returns. -/
def Wfin (c : Dev nD) : Valuation τ sig (Elt F) := StableHlo.after hostOps1 (V₁ m ρ c)

/-- The physical post: the two arguments and the result at the final valuation. -/
def QC : PUnit × MemSt nD τ sig (Elt F) → Prop := fun r =>
  ∀ c : Dev nD, r.2.mem ((c : Thread nD τ).loc main_arg0) = Wfin m ρ c (Proc.devRef .tc main_arg0)
    ∧ r.2.mem ((c : Thread nD τ).loc main_arg1) = Wfin m ρ c (Proc.devRef .tc main_arg1)
    ∧ r.2.mem ((c : Thread nD τ).loc main_v15) = Wfin m ρ c (Proc.devRef .tc main_v15)

set_option backward.isDefEq.respectTransparency.types false in
/-- At the compiled mesh, for any float values, from any memory with zero counters: every weakly fair execution of
    @main terminates, nothing faulting, and every final state has the arguments and the result at the final valuation. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Wfin m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_arg0) = Wfin m ρ c (Proc.devRef .tc main_arg0)
      ∧ s.mem ((c : Thread nD τ).loc main_arg1) = Wfin m ρ c (Proc.devRef .tc main_arg1)
      ∧ s.mem ((c : Thread nD τ).loc main_v15) = Wfin m ρ c (Proc.devRef .tc main_v15))
    (hfin := fun c s' => by
      rw [show StableHlo.held (c : Thread nD τ) (Pipeline.ucRefs τ sig) (Wfin m ρ c) = unscopedBufs c (fun b => Wfin m ρ c b) from (Pipeline.unscopedBufs_held c _).symm]
      unfold unscopedBufs
      iintro ⟨Hh, HSI⟩
      ihave Hr := (pointsTo_read_all (Finset.univ.filter fun b : Ref sig .tc => ¬ b.isScoped) (fun b => (c : Thread nD τ).loc b) (fun b => Wfin m ρ c b) s') $$ [Hh HSI]
      · isplitl [Hh] <;> iassumption
      icases Hr with ⟨%h, HSI⟩
      imodintro
      isplitr; · ipureintro; exact ⟨h main_arg0 (by decide), h main_arg1 (by decide), h main_v15 (by decide)⟩
      iexact HSI)
    (hQ := fun _ h => h)

/-! ## The arguments end unchanged -/

/-- No host operation writes an argument array. -/
theorem not_written0 (b : Ref sig .tc) (hb : b = main_arg0 ∨ b = main_arg1) :
    ∀ op ∈ (hostOps0 (F := F)), Proc.devRef .tc b ∉ op.writes := by
  intro op hop
  simp only [List.mem_cons, List.mem_nil_iff, or_false] at hop
  rcases hb with rfl | rfl <;> rcases hop with rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)
theorem not_written1 (b : Ref sig .tc) (hb : b = main_arg0 ∨ b = main_arg1) :
    ∀ op ∈ (hostOps1 (F := F)), Proc.devRef .tc b ∉ op.writes := by
  intro op hop
  simp only [List.mem_cons, List.mem_nil_iff, or_false] at hop
  rcases hb with rfl | rfl <;> rcases hop with rfl | rfl | rfl | rfl <;>
    simp only [StableHlo.unary_writes, StableHlo.binary_writes, StableHlo.nullary_writes, StableHlo.reshape_writes, Finset.mem_singleton] <;>
    exact StableHlo.devRef_ne_of_ne (by decide)

/-- An argument array at the end holds what it held at launch. -/
theorem Wfin_arg (c : Dev nD) (b : Ref sig .tc) (hb : b = main_arg0 ∨ b = main_arg1) :
    Wfin m ρ c (Proc.devRef .tc b) = m ((c : Thread nD τ).loc b) :=
  (StableHlo.after_of_forall_not_mem hostOps1 _ (not_written1 b hb)).trans
    ((V₁_of_ne m ρ c b (by rcases hb with rfl | rfl <;> decide)).trans
      (StableHlo.after_of_forall_not_mem (b := Proc.devRef .tc b) hostOps0 (V₀ m ρ c) (not_written0 b hb)))

/-- THE FRAME: every weakly fair execution terminates, faults nowhere, and leaves both arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (Wfin_arg m ρ c main_arg0 (.inl rfl)), (h c).2.1.trans (Wfin_arg m ρ c main_arg1 (.inr rfl))⟩)
    (run_main m ρ)

end Cert.Kernel.Hand

end
-- ==== Proof.KIBody.lean ====
/-
  The kernel body at one grid point, and the pipeline's proof data.

  One grid point handles a tile of 1024 rows. The body reads the tile's normalised rows, squared norms and labels, then
  walks the whole matrix of 8192 normalised rows in eight chunks of 1024 columns, carrying for every row of the tile the
  running maximum of the same-label distances and the running minimum of the other-label distances; after the last
  chunk it clips both from below, forms `max (pos - neg + margin) 0` and stores the tile's 1024 losses. Nothing but the
  output tile is written: every input buffer is handed back as it was found.

  The matrix of normalised rows is handed to the kernel twice — tile by tile and whole — so two windows stand on one
  array; the proof data deals that array's ownership between them in two halves.
-/
import proofs.«165385_j16406775070902_2_alg».proof.Proof.Gen.KernelIdeal.Launch
import proofs.«165385_j16406775070902_2_alg».proof.Proof.Gen.KernelIdeal.Skeleton
import proofs.«165385_j16406775070902_2_alg».proof.Proof.Gen.KernelIdeal.Points
import proofs.«165385_j16406775070902_2_alg».proof.Proof.Gen.KernelIdeal.Loops
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers at launch, as a valuation; -/
abbrev V₀ (c : Dev nD) : Valuation τ sig (Elt F) := fun b => (s₀ m ρ).mem ((c : Dev nD), b)
/-- and when the region is entered: the host operations before it have run. -/
abbrev V (c : Dev nD) (b : Ref sig .tc) : Buf (Elt F) ((c : Thread nD τ).loc b) := StableHlo.after hostOps0 (V₀ m ρ c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m ρ c (Pipeline.arrRef spec0 0))
    (hafter : ∀ t, dat.after 0 t = iblk m ρ c 0 t) (t : Fin cfg0.N) (d) : dat.before 0 t d = iblk m ρ c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m ρ c (Pipeline.arrRef spec0 1))
    (hafter : ∀ t, dat.after 1 t = iblk m ρ c 1 t) (t : Fin cfg0.N) (d) : dat.before 1 t d = iblk m ρ c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m ρ c (Pipeline.arrRef spec0 2))
    (hafter : ∀ t, dat.after 2 t = iblk m ρ c 2 t) (t : Fin cfg0.N) (d) : dat.before 2 t d = iblk m ρ c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m ρ c (Pipeline.arrRef spec0 3))
    (hafter : ∀ t, dat.after 3 t = iblk m ρ c 3 t) (t : Fin cfg0.N) (d) : dat.before 3 t d = iblk m ρ c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m ρ c (Pipeline.arrRef spec0 4))
    (hafter : ∀ t, dat.after 4 t = iblk m ρ c 4 t) (t : Fin cfg0.N) (d) : dat.before 4 t d = iblk m ρ c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m ρ c (Pipeline.arrRef spec0 5))
    (hafter : ∀ t, dat.after 5 t = iblk m ρ c 5 t) (t : Fin cfg0.N) (d) : dat.before 5 t d = iblk m ρ c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile -/

/-- The whole-tile rectangle of the one store. -/
abbrev r6 : Rect S1024x1 := Rect.unit (s := S1024x1) ![0, 0] S1024x1.size inb_S1024x1_S1024x1_0_0

/-- The pair (running maximum, running minimum) after the eight chunks, from the contents of the six input buffers:
    the loop's carried value, by the recursion on its trips. -/
def carried (c : Dev nD) (i : grid0.Coords) (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec F S1024x256 .bf16) (x1 : Vec F S8192x256 .bf16) (x2 : Vec F S1024x1 .f32) (x3 : Vec F S1x8192 .f32)
    (x4 : Vec F S1024x1 .i32) (x5 : Vec F S1x8192 .i32) : FVec F S1024x1 .f32 × FVec F S1024x1 .f32 :=
  st_k0_t1 (F := F) Variants.none c none i arg1 harg1 arg2 harg2 arg3 harg3 arg4 harg4 arg5 harg5 arg6 harg6 arg7 harg7
    (View.readAt (Elt F) arg1.view (Rect.unit (s := S1024x256) ![0, 0] S1024x256.size inb_S1024x256_S1024x256_0_0).toLoadRect (harg1.unread x0))
    (View.readAt (Elt F) arg3.view (Rect.unit (s := S1024x1) ![0, 0] S1024x1.size inb_S1024x1_S1024x1_0_0).toLoadRect (harg3.unread x2))
    (View.readAt (Elt F) arg5.view (Rect.unit (s := S1024x1) ![0, 0] S1024x1.size inb_S1024x1_S1024x1_0_0).toLoadRect (harg5.unread x4))
    (harg2.unread x1) (harg4.unread x3) (harg6.unread x5) (k0_pay1, k0_pay2) (Scf.trips k0_t1_loop.lb k0_t1_loop.ub k0_t1_loop.st)

/-- The output buffer after the body: its one store, of the losses computed from the carried pair. -/
def out0_6 (c : Dev nD) (i : grid0.Coords) (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec F S1024x256 .bf16) (x1 : Vec F S8192x256 .bf16) (x2 : Vec F S1024x1 .f32) (x3 : Vec F S1x8192 .f32)
    (x4 : Vec F S1024x1 .i32) (x5 : Vec F S1x8192 .i32) : Vec F S1024x1 .f32 :=
  View.canon [⟨r6, k0_pay7 (carried c i arg1 harg1 arg2 harg2 arg3 harg3 arg4 harg4 arg5 harg5 arg6 harg6 arg7 harg7 x0 x1 x2 x3 x4 x5).1 (carried c i arg1 harg1 arg2 harg2 arg3 harg3 arg4 harg4 arg5 harg5 arg6 harg6 arg7 harg7 x0 x1 x2 x3 x4 x5).2⟩]

/-- The store covers the buffer. -/
theorem cover0_6 (p0 : Vec F S1024x1 .f32) (y : S1024x1.Idx) :
    ∃ pc ∈ ([⟨r6, p0⟩] : List (View.Piece (Elt F) S1024x1 .f32)), y ∈ pc.1.set :=
  View.cover_of_tiled [⟨r6, p0⟩] S1024x1.size (by rfl) y

/-! ## The body's triple -/

set_option maxHeartbeats 2000000 in
/-- The body on whole staging buffers, the inputs' at contents `xW` and the output's at anything, runs to the
    continuation holding the inputs' as they were and the output's at `out0_6` of the inputs'. -/
theorem sound_kernel (c : Dev nD) (E : Set ℕ) (i : grid0.Coords) (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec F S1024x256 .bf16) (x1 : Vec F S8192x256 .bf16) (x2 : Vec F S1024x1 .f32) (x3 : Vec F S1x8192 .f32)
    (x4 : Vec F S1024x1 .i32) (x5 : Vec F S1x8192 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 c i arg1 harg1 arg2 harg2 arg3 harg3 arg4 harg4 arg5 harg5 arg6 harg6 arg7 harg7 x0 x1 x2 x3 x4 x5)) -∗ K ⟨⟩))
      ⊢ wp frame (wpE (defs₀ (F := F)) Variants.none c none) E (cc0__mining_kernel i arg1 harg1 arg2 harg2 arg3 harg3 arg4 harg4 arg5 harg5 arg6 harg6 arg7 harg7) K := by
  simp only [cc0__mining_kernel_eq_skeleton]; unfold cc0__mining_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  have e0 := harg1.eq_unread hf0
  have e1 := harg2.eq_unread hf1
  have e2 := harg3.eq_unread hf2
  have e3 := harg4.eq_unread hf3
  have e4 := harg5.eq_unread hf4
  have e5 := harg6.eq_unread hf5
  subst e0 e1 e2 e3 e4 e5
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  exact View.read_writes_eq_canon _ _ _ (cover0_6 _)

/-! ## The pipeline's proof data -/

/-- The proof data on core `c`: the arrays as the region finds them; after the body at point `t` each input's
    buffer at its block and the output's at `out0_6` of the input blocks; the invariant the scoped buffers no window
    stages; nothing owed; the array of normalised rows held in two halves by the two windows on it, every other
    array whole. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => out0_6 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m ρ c 0 t) (iblk m ρ c 1 t) (iblk m ρ c 2 t) (iblk m ρ c 3 t) (iblk m ρ c 4 t) (iblk m ρ c 5 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem after0_0 (c : Dev nD) (t : Fin cfg0.N) : (dats m ρ 0 c).after 0 t = iblk m ρ c 0 t := by dsimp only [dats]
theorem after0_1 (c : Dev nD) (t : Fin cfg0.N) : (dats m ρ 0 c).after 1 t = iblk m ρ c 1 t := by dsimp only [dats]
theorem after0_2 (c : Dev nD) (t : Fin cfg0.N) : (dats m ρ 0 c).after 2 t = iblk m ρ c 2 t := by dsimp only [dats]
theorem after0_3 (c : Dev nD) (t : Fin cfg0.N) : (dats m ρ 0 c).after 3 t = iblk m ρ c 3 t := by dsimp only [dats]
theorem after0_4 (c : Dev nD) (t : Fin cfg0.N) : (dats m ρ 0 c).after 4 t = iblk m ρ c 4 t := by dsimp only [dats]
theorem after0_5 (c : Dev nD) (t : Fin cfg0.N) : (dats m ρ 0 c).after 5 t = iblk m ρ c 5 t := by dsimp only [dats]
theorem after0_6 (c : Dev nD) (t : Fin cfg0.N) : (dats m ρ 0 c).after 6 t
    = out0_6 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (iblk m ρ c 0 t) (iblk m ρ c 1 t) (iblk m ρ c 2 t) (iblk m ρ c 3 t) (iblk m ρ c 4 t) (iblk m ρ c 5 t) := by dsimp only [dats]

theorem before0_0 (c : Dev nD) (t : Fin cfg0.N) (d) : (dats m ρ 0 c).before 0 t d = iblk m ρ c 0 t :=
  before0_0_of m ρ (dats m ρ 0 c) (A_eq m ρ c 0) (after0_0 m ρ c) t d
theorem before0_1 (c : Dev nD) (t : Fin cfg0.N) (d) : (dats m ρ 0 c).before 1 t d = iblk m ρ c 1 t :=
  before0_1_of m ρ (dats m ρ 0 c) (A_eq m ρ c 1) (after0_1 m ρ c) t d
theorem before0_2 (c : Dev nD) (t : Fin cfg0.N) (d) : (dats m ρ 0 c).before 2 t d = iblk m ρ c 2 t :=
  before0_2_of m ρ (dats m ρ 0 c) (A_eq m ρ c 2) (after0_2 m ρ c) t d
theorem before0_3 (c : Dev nD) (t : Fin cfg0.N) (d) : (dats m ρ 0 c).before 3 t d = iblk m ρ c 3 t :=
  before0_3_of m ρ (dats m ρ 0 c) (A_eq m ρ c 3) (after0_3 m ρ c) t d
theorem before0_4 (c : Dev nD) (t : Fin cfg0.N) (d) : (dats m ρ 0 c).before 4 t d = iblk m ρ c 4 t :=
  before0_4_of m ρ (dats m ρ 0 c) (A_eq m ρ c 4) (after0_4 m ρ c) t d
theorem before0_5 (c : Dev nD) (t : Fin cfg0.N) (d) : (dats m ρ 0 c).before 5 t d = iblk m ρ c 5 t :=
  before0_5_of m ρ (dats m ρ 0 c) (A_eq m ρ c 5) (after0_5 m ρ c) t d

/-! ## The body obligation -/

/-- What the body is called with at point `t`, the windows one by one, -/
def bodyPre (c : Dev nD) (t : Fin cfg0.N) : sProp 𝕄 :=
  iprop((dats m ρ 0 c).Φ t.castSucc ∗ (dats m ρ 0 c).owesAt () t.castSucc
    ∗ (∃ d, owns (c : Thread nD τ) (st0_0 t) fullShare ((dats m ρ 0 c).before 0 t d))
    ∗ (∃ d, owns (c : Thread nD τ) (st0_1 t) fullShare ((dats m ρ 0 c).before 1 t d))
    ∗ (∃ d, owns (c : Thread nD τ) (st0_2 t) fullShare ((dats m ρ 0 c).before 2 t d))
    ∗ (∃ d, owns (c : Thread nD τ) (st0_3 t) fullShare ((dats m ρ 0 c).before 3 t d))
    ∗ (∃ d, owns (c : Thread nD τ) (st0_4 t) fullShare ((dats m ρ 0 c).before 4 t d))
    ∗ (∃ d, owns (c : Thread nD τ) (st0_5 t) fullShare ((dats m ρ 0 c).before 5 t d))
    ∗ (∃ d, owns (c : Thread nD τ) (st0_6 t) fullShare ((dats m ρ 0 c).before 6 t d)))

/-- and what it returns. -/
def bodyPost (c : Dev nD) (t : Fin cfg0.N) : sProp 𝕄 :=
  iprop((dats m ρ 0 c).Φ t.succ ∗ (dats m ρ 0 c).owesAt () t.succ
    ∗ owns (c : Thread nD τ) (st0_0 t) fullShare ((dats m ρ 0 c).after 0 t)
    ∗ owns (c : Thread nD τ) (st0_1 t) fullShare ((dats m ρ 0 c).after 1 t)
    ∗ owns (c : Thread nD τ) (st0_2 t) fullShare ((dats m ρ 0 c).after 2 t)
    ∗ owns (c : Thread nD τ) (st0_3 t) fullShare ((dats m ρ 0 c).after 3 t)
    ∗ owns (c : Thread nD τ) (st0_4 t) fullShare ((dats m ρ 0 c).after 4 t)
    ∗ owns (c : Thread nD τ) (st0_5 t) fullShare ((dats m ρ 0 c).after 5 t)
    ∗ owns (c : Thread nD τ) (st0_6 t) fullShare ((dats m ρ 0 c).after 6 t))

/-- The body at any point: the inputs' buffers hold their blocks, so the triple applies; the invariant and the core's
    debts pass through unread. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before0_0, before0_1, before0_2, before0_3, before0_4, before0_5]
  rw [show (dats m ρ 0 c).Φ t.succ = (dats m ρ 0 c).Φ t.castSucc from rfl,
    show (dats m ρ 0 c).owesAt () t.succ = (dats m ρ 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m ρ c 0 t) (iblk m ρ c 1 t) (iblk m ρ c 2 t) (iblk m ρ c 3 t) (iblk m ρ c 4 t) (iblk m ρ c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Hand

end
-- ==== Proof.KIRun.lean ====
/-
  The launch: @main as a stretch of host operations, the kernel region, and a second stretch of host operations.

  The host operations before the region normalise the rows and prepare the kernel's six operands; the region runs the
  body at the eight grid points; the host operations after it sum the 8192 row losses and divide by 8192. The matrix of
  normalised rows stands behind two of the region's windows, so at the region's entry its buffer's ownership is dealt in
  two halves, one per window, and at the exit the halves are joined again; every other array goes in and comes out whole.
-/
import proofs.«165385_j16406775070902_2_alg».proof.Proof.Gen.KernelIdeal.Launch
import proofs.«165385_j16406775070902_2_alg».proof.Proof.Gen.KernelIdeal.Skeleton
import proofs.«165385_j16406775070902_2_alg».proof.Proof.Gen.KernelIdeal.Points
import proofs.«165385_j16406775070902_2_alg».proof.Proof.Gen.KernelIdeal.Loops
import proofs.«165385_j16406775070902_2_alg».proof.Proof.KIBody
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user component. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm

/-- What rides beside the buffers through the host operations: the core's debts, none. -/
abbrev R (c : Dev nD) : sProp 𝕄 := iprop(∃ W, owes (c : Thread nD τ) (0 : CellTallies nD τ sig Unit) W)

/-! ## The windows' arrays, listed -/

/-- The six distinct buffers behind the seven windows' arrays, each whole. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v9) ↦{fullShare} W main_v9) ∗ (((c : Thread nD τ).loc main_v8) ↦{fullShare} W main_v8) ∗ (((c : Thread nD τ).loc main_v10) ↦{fullShare} W main_v10) ∗ (((c : Thread nD τ).loc main_v11) ↦{fullShare} W main_v11) ∗ (((c : Thread nD τ).loc main_v12) ↦{fullShare} W main_v12) ∗ (((c : Thread nD τ).loc main_v13) ↦{fullShare} W main_v13)) := by
  unfold Pipeline.arrBufs
  exact bigSep_eq_bigSepL_of_eq [main_v9, main_v8, main_v10, main_v11, main_v12, main_v13] (by decide) (by decide) _

/-- The proof data's arrays, window by window: the matrix of normalised rows in two halves, the rest whole. -/
theorem arrays0_eq (c : Dev nD) (Fs : (w : Fin cfg0.W) → Buf (Elt F) ((cfg0.win w).arr.view.loc (c : Thread nD τ))) :
    ((dats m ρ 0 c).arrays Fs : sProp 𝕄)
      = iprop((((c : Thread nD τ).loc main_v9) ↦{fullShare.left} Fs 0) ∗ (((c : Thread nD τ).loc main_v9) ↦{fullShare.right} Fs 1)
          ∗ (((c : Thread nD τ).loc main_v8) ↦{fullShare} Fs 2) ∗ (((c : Thread nD τ).loc main_v10) ↦{fullShare} Fs 3)
          ∗ (((c : Thread nD τ).loc main_v11) ↦{fullShare} Fs 4) ∗ (((c : Thread nD τ).loc main_v12) ↦{fullShare} Fs 5)
          ∗ (((c : Thread nD τ).loc main_v13) ↦{fullShare} Fs 6)) := by
  unfold Dat.arrays
  rw [show (bigSep Finset.univ fun w : Fin cfg0.W => ((cfg0.win w).arr.view.loc (c : Thread nD τ) ↦[(cfg0.win w).arr.view.set]{(dats m ρ 0 c).share w} Fs w : sProp 𝕄))
        = bigSep Finset.univ fun w : Fin cfg0.W => ((cfg0.win w).arr.view.loc (c : Thread nD τ) ↦{(dats m ρ 0 c).share w} Fs w : sProp 𝕄) from
      bigSep_congr fun w _ => by rw [(arr_whole0 w).set_eq_univ]]
  rw [bigSep_W0]
  rfl

/-- ENTRY: the six buffers, whole, make the proof data's arrays at their entry contents. -/
theorem deal (c : Dev nD) :
    (Pipeline.arrBufs (Ix := Unit) (Name := ℕ) (U := UR sig nD τ) (Lvl := ℕ) spec0 c (V m ρ c) : sProp 𝕄)
      ⊢ (dats m ρ 0 c).arrays ((dats m ρ 0 c).arrAt · 0) := by
  rw [arrBufs0_eq, arrays0_eq]
  iintro ⟨H9, H8, H10, H11, H12, H13⟩
  ihave H := (pointsTo_share (PosShare.mem_left_op_right fullShare)).1 $$ H9
  icases H with ⟨H9l, H9r⟩
  isplitl [H9l]; · iexact H9l
  isplitl [H9r]; · iexact H9r
  isplitl [H8]; · iexact H8
  isplitl [H10]; · iexact H10
  isplitl [H11]; · iexact H11
  isplitl [H12]; · iexact H12
  iexact H13

/-- The buffers when the region is left: the result's at what the write-backs left, the others as they were found. -/
def V₁ (c : Dev nD) : Valuation τ sig (Elt F) :=
  Function.update (StableHlo.after hostOps0 (V₀ m ρ c)) (Proc.devRef .tc main_v13) ((dats m ρ 0 c).arrAt 6 cfg0.N)

theorem V₁_out (c : Dev nD) : V₁ m ρ c (Proc.devRef .tc main_v13) = (dats m ρ 0 c).arrAt 6 cfg0.N := by
  unfold V₁; rw [Function.update_self]

theorem V₁_of_ne (c : Dev nD) (b : Ref sig .tc) (hb : b ≠ main_v13) : V₁ m ρ c (Proc.devRef .tc b) = V m ρ c b := by
  unfold V₁; rw [Function.update_of_ne (fun h => hb (Proc.devRef_injective _ h))]

/-- EXIT: the proof data's arrays at their final contents make the six buffers, whole, at the exit valuation. -/
theorem gather (c : Dev nD) :
    ((dats m ρ 0 c).arrays ((dats m ρ 0 c).arrAt · cfg0.N) : sProp 𝕄)
      ⊢ Pipeline.arrBufs (Ix := Unit) (Name := ℕ) (U := UR sig nD τ) (Lvl := ℕ) spec0 c (fun b => V₁ m ρ c b) := by
  rw [arrBufs0_eq, arrays0_eq]
  rw [(dats m ρ 0 c).arrAt_in 0 rfl, (dats m ρ 0 c).arrAt_in 1 rfl, (dats m ρ 0 c).arrAt_in 2 rfl, (dats m ρ 0 c).arrAt_in 3 rfl,
    (dats m ρ 0 c).arrAt_in 4 rfl, (dats m ρ 0 c).arrAt_in 5 rfl]
  rw [V₁_of_ne m ρ c main_v9 (by decide), V₁_of_ne m ρ c main_v8 (by decide), V₁_of_ne m ρ c main_v10 (by decide),
    V₁_of_ne m ρ c main_v11 (by decide), V₁_of_ne m ρ c main_v12 (by decide), V₁_out]
  iintro ⟨H9l, H9r, H8, H10, H11, H12, H13⟩
  isplitl [H9l H9r]
  · iapply (pointsTo_share (PosShare.mem_left_op_right fullShare)).2
    isplitl [H9l]; · iexact H9l
    iexact H9r
  isplitl [H8]; · iexact H8
  isplitl [H10]; · iexact H10
  isplitl [H11]; · iexact H11
  isplitl [H12]; · iexact H12
  iexact H13

/-- Off the windows' arrays the exit valuation is the entry one. -/
theorem rest_eq (c : Dev nD) :
    (Pipeline.unscopedRest (Ix := Unit) (Name := ℕ) (U := UR sig nD τ) (Lvl := ℕ) spec0 c (V m ρ c) : sProp 𝕄)
      = Pipeline.unscopedRest (Ix := Unit) (Name := ℕ) (U := UR sig nD τ) (Lvl := ℕ) spec0 c (fun b => V₁ m ρ c b) := by
  unfold Pipeline.unscopedRest
  exact bigSep_congr fun b hb => by
    dsimp only
    rw [V₁_of_ne m ρ c b (fun h => (Finset.mem_sdiff.mp hb).2 (Finset.mem_image.mpr ⟨6, Finset.mem_univ _, h ▸ rfl⟩))]

/-! ## The segments -/

theorem hfresh0 : ∀ op ∈ (hostOps0 : List (HloOp τ sig (Elt F))), op.fresh = ∅ := by
  intro _ h; (repeat (cases h with | head => rfl | tail _ h => ?_)); exact nomatch h
theorem hfresh1 : ∀ op ∈ (hostOps1 : List (HloOp τ sig (Elt F))), op.fresh = ∅ := by
  intro _ h; (repeat (cases h with | head => rfl | tail _ h => ?_)); exact nomatch h

/-- The host operations before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hfresh0 (V₀ m ρ) R

/-- The host operations after the region, from the exit valuation. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hfresh1 (V₁ m ρ) R

set_option backward.isDefEq.respectTransparency.types false in
/-- The region: entered from what the first stretch left — the six buffers behind the windows dealt to the pipeline, the
    other unscoped buffers bypassing —, left with the result's buffer at what the write-backs made of it. -/
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (V₁ m ρ c) ∗ R c)
  X c := iprop(emp)
  Y c := iprop(emp)
  Z c := Pipeline.unscopedRest (Ix := Unit) (Name := ℕ) (U := UR sig nD τ) (Lvl := ℕ) spec0 c (V m ρ c)
  hentry c := by
    rw [show StableHlo.held (c : Thread nD τ) (Pipeline.ucRefs τ sig) (StableHlo.after hostOps0 (V₀ m ρ c)) = unscopedBufs c (V m ρ c) from (Pipeline.unscopedBufs_held c _).symm,
      Pipeline.unscopedBufs_split₀ cfgs 0 winFacts₀0.arr_unscoped c (V m ρ c)]
    iintro ⟨⟨⟨Ha, Hr⟩, HO⟩, -, -⟩
    imodintro
    isplitl [Ha]; · iapply (deal m ρ c); iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m ρ 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none (nD := nD) (τ := τ) (sig := sig) (Ix := Unit) (Val := Elt F) (Name := ℕ) (U := UR sig nD τ) (Lvl := ℕ) c,
      show (dats m ρ 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m ρ c) = unscopedBufs c (fun b => V₁ m ρ c b) from (Pipeline.unscopedBufs_held c _).symm,
      Pipeline.unscopedBufs_split₀ cfgs 0 winFacts₀0.arr_unscoped c (fun b => V₁ m ρ c b), ← rest_eq m ρ c]
    iintro ⟨Ha, HO, -, HZ⟩
    imodintro
    isplitr [HO]
    · isplitl [Ha]; · iapply (gather m ρ c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m ρ) () defs₀ 𝒱₀ L lv) := [.host (seg0 m ρ), .region (reg0 m ρ), .host (seg1 m ρ)]

/-- The launch element: the pipeline library's, at the staging cells and the pipeline's transfers. -/
def u₀ : UR sig nD τ := initOf (Pipeline.cells cfgs cellOf_inj) (Pipeline.launchToks cfgs cellOf_inj)

/-- The buffers when @main returns. -/
def Wfin (c : Dev nD) : Valuation τ sig (Elt F) := StableHlo.after hostOps1 (V₁ m ρ c)

/-- The physical post: the two arguments and the result at the final valuation. -/
def QC : PUnit × MemSt nD τ sig (Elt F) → Prop := fun r =>
  ∀ c : Dev nD, r.2.mem ((c : Thread nD τ).loc main_arg0) = Wfin m ρ c (Proc.devRef .tc main_arg0)
    ∧ r.2.mem ((c : Thread nD τ).loc main_arg1) = Wfin m ρ c (Proc.devRef .tc main_arg1)
    ∧ r.2.mem ((c : Thread nD τ).loc main_v15) = Wfin m ρ c (Proc.devRef .tc main_v15)

set_option backward.isDefEq.respectTransparency.types false in
/-- At the compiled mesh, for any float values, from any memory with zero counters: every weakly fair execution of
    @main terminates, nothing faulting, and every final state has the arguments and the result at the final valuation. -/
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_segs adm (dats m ρ) () 𝒱₀ L lv (seg0 m ρ) (seg1 m ρ) (reg0 m ρ) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (Wfin m ρ c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_arg0) = Wfin m ρ c (Proc.devRef .tc main_arg0)
      ∧ s.mem ((c : Thread nD τ).loc main_arg1) = Wfin m ρ c (Proc.devRef .tc main_arg1)
      ∧ s.mem ((c : Thread nD τ).loc main_v15) = Wfin m ρ c (Proc.devRef .tc main_v15))
    (hfin := fun c s' => by
      rw [show StableHlo.held (c : Thread nD τ) (Pipeline.ucRefs τ sig) (Wfin m ρ c) = unscopedBufs c (fun b => Wfin m ρ c b) from (Pipeline.unscopedBufs_held c _).symm]
      unfold unscopedBufs
      iintro ⟨Hh, HSI⟩
      ihave Hr := (pointsTo_read_all (Finset.univ.filter fun b : Ref sig .tc => ¬ b.isScoped) (fun b => (c : Thread nD τ).loc b) (fun b => Wfin m ρ c b) s') $$ [Hh HSI]
      · isplitl [Hh] <;> iassumption
      icases Hr with ⟨%h, HSI⟩
      imodintro
      isplitr; · ipureintro; exact ⟨h main_arg0 (by decide), h main_arg1 (by decide), h main_v15 (by decide)⟩
      iexact HSI)
    (hQ := fun _ h => h)

/-! ## The arguments end unchanged -/

/-- No host operation writes an argument array. -/
theorem not_written0 (b : Ref sig .tc) (hb : b = main_arg0 ∨ b = main_arg1) :
    ∀ op ∈ (hostOps0 (F := F)), Proc.devRef .tc b ∉ op.writes := by
  intro op hop
  simp only [List.mem_cons, List.mem_nil_iff, or_false] at hop
  rcases hb with rfl | rfl <;> rcases hop with rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide)
theorem not_written1 (b : Ref sig .tc) (hb : b = main_arg0 ∨ b = main_arg1) :
    ∀ op ∈ (hostOps1 (F := F)), Proc.devRef .tc b ∉ op.writes := by
  intro op hop
  simp only [List.mem_cons, List.mem_nil_iff, or_false] at hop
  rcases hb with rfl | rfl <;> rcases hop with rfl | rfl | rfl | rfl <;>
    simp only [StableHlo.unary_writes, StableHlo.binary_writes, StableHlo.nullary_writes, StableHlo.reshape_writes, Finset.mem_singleton] <;>
    exact StableHlo.devRef_ne_of_ne (by decide)

/-- An argument array at the end holds what it held at launch. -/
theorem Wfin_arg (c : Dev nD) (b : Ref sig .tc) (hb : b = main_arg0 ∨ b = main_arg1) :
    Wfin m ρ c (Proc.devRef .tc b) = m ((c : Thread nD τ).loc b) :=
  (StableHlo.after_of_forall_not_mem hostOps1 _ (not_written1 b hb)).trans
    ((V₁_of_ne m ρ c b (by rcases hb with rfl | rfl <;> decide)).trans
      (StableHlo.after_of_forall_not_mem (b := Proc.devRef .tc b) hostOps0 (V₀ m ρ c) (not_written0 b hb)))

/-- THE FRAME: every weakly fair execution terminates, faults nowhere, and leaves both arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (Wfin_arg m ρ c main_arg0 (.inl rfl)), (h c).2.1.trans (Wfin_arg m ρ c main_arg1 (.inr rfl))⟩)
    (run_main m ρ)

end Cert.KernelIdeal.Hand

end
-- ==== Proof.HardMining.lean ====
/-
  Batch-hard margin loss over the extended reals: the function both programs compute.

  For unit-normalised rows `vs i` (any extended reals), their squared norms `sq i` and class labels `tg i`, the
  squared distance of rows `i`, `j` is `(sq i + sq j) - 2·⟨vs i, vs j⟩`. Row `i`'s hardest positive is the largest
  clipped distance to a row of the same class, its hardest negative the smallest clipped distance to a row of
  another class (`⊤` when there is none), the row's loss `max (pos - neg + margin) 0`, and the result the mean of
  the rows' losses. Clipping from below by `ε` is monotone, so it may be applied to every distance before the
  maximum / minimum is taken (`refPos`, `refNeg`) or once to the maximum / minimum of the raw distances (`kerPos`,
  `kerNeg`): for the minimum this is the distributive law of a linear order (`max (inf g) ε = inf (max g ε)`, the
  same-class entries standing at `⊤` on both sides); for the maximum it needs the same-class set to be inhabited —
  it always holds row `i` itself — because an empty maximum is `⊥`, below `ε`.
-/
import Mathlib
import Idealize.ShloMosaic.PureOps.Ideal

noncomputable section

namespace Cert.HardMining

open Idealize.ShloMosaic
open scoped BigOperators

/-- The programs' float constants, as the extended reals their words denote. -/
def two : EReal := Ideal.ofBits .f32 0x40000000#32
def eps : EReal := Ideal.ofBits .f32 0x2B8CBCCC#32
def margin : EReal := Ideal.ofBits .f32 0x3E99999A#32
def zero : EReal := Ideal.ofBits .f32 0x00000000#32
def count : EReal := Ideal.ofBits .f32 0x46000000#32

/-- The words of the two infinities denote `⊥` and `⊤`. -/
theorem ofBits_neg_inf : Ideal.ofBits .f32 0xFF800000#32 = (⊥ : EReal) := by
  simp [Ideal.ofBits, Ideal.ieee]
theorem ofBits_pos_inf : Ideal.ofBits .f32 0x7F800000#32 = (⊤ : EReal) := by
  simp [Ideal.ofBits, Ideal.ieee]

section
variable {n d : ℕ} (vs : Fin n → Fin d → EReal) (sq : Fin n → EReal) (tg : Fin n → BitVec 32)

/-- The squared distance of rows `i` and `j`. -/
def dist (i j : Fin n) : EReal := (sq i + sq j) - two * ∑ k : Fin d, vs i k * vs j k

/-- Hardest positive and hardest negative of row `i`, every distance clipped first. -/
def refPos (i : Fin n) : EReal := Finset.univ.sup fun j => if tg i = tg j then max eps (dist vs sq i j) else ⊥
def refNeg (i : Fin n) : EReal := Finset.univ.inf fun j => if tg i = tg j then ⊤ else max eps (dist vs sq i j)

/-- The same with the clip applied once, to the maximum / minimum of the raw distances. -/
def kerPos (i : Fin n) : EReal := max (Finset.univ.sup fun j => if tg i = tg j then dist vs sq i j else ⊥) eps
def kerNeg (i : Fin n) : EReal := max (Finset.univ.inf fun j => if tg i = tg j then ⊤ else dist vs sq i j) eps

/-- A row's loss from its hardest positive and negative, and the mean over the rows. -/
def rowLoss (p q : EReal) : EReal := max (p - q + margin) zero
def loss (r : Fin n → EReal) : EReal := Ideal.div (zero + ∑ i : Fin n, r i) count

theorem kerPos_eq_refPos (i : Fin n) : kerPos vs sq tg i = refPos vs sq tg i := by
  unfold kerPos refPos
  apply le_antisymm
  · apply max_le
    · apply Finset.sup_mono_fun
      intro j _
      by_cases h : tg i = tg j
      · simp only [if_pos h]; exact le_max_right _ _
      · simp only [if_neg h]; exact le_rfl
    · have h := Finset.le_sup (f := fun j => if tg i = tg j then max eps (dist vs sq i j) else ⊥) (Finset.mem_univ i)
      simp only [if_true] at h
      exact (le_max_left _ _).trans h
  · apply Finset.sup_le
    intro j _
    by_cases h : tg i = tg j
    · simp only [if_pos h]
      apply max_le (le_max_right _ _)
      have h' := Finset.le_sup (f := fun j => if tg i = tg j then dist vs sq i j else ⊥) (Finset.mem_univ j)
      simp only [if_pos h] at h'
      exact h'.trans (le_max_left _ _)
    · simp only [if_neg h]; exact bot_le

theorem kerNeg_eq_refNeg (i : Fin n) : kerNeg vs sq tg i = refNeg vs sq tg i := by
  unfold kerNeg refNeg
  apply le_antisymm
  · apply max_le
    · apply Finset.le_inf
      intro j _
      have h' := Finset.inf_le (f := fun j => if tg i = tg j then ⊤ else dist vs sq i j) (Finset.mem_univ j)
      by_cases h : tg i = tg j
      · simp only [if_pos h]; exact le_top
      · simp only [if_neg h] at h' ⊢; exact h'.trans (le_max_right _ _)
    · apply Finset.le_inf
      intro j _
      by_cases h : tg i = tg j
      · simp only [if_pos h]; exact le_top
      · simp only [if_neg h]; exact le_max_left _ _
  · -- a finite infimum in a linear order is attained, or is `⊤`
    by_contra hlt
    rw [not_le] at hlt
    obtain ⟨hlt1, hlt2⟩ := max_lt_iff.mp hlt
    rcases (Finset.univ : Finset (Fin n)).eq_empty_or_nonempty with he | hne
    · rw [he, Finset.inf_empty] at hlt1
      exact absurd hlt1 (not_lt.mpr le_top)
    · obtain ⟨j, -, hj⟩ := Finset.exists_mem_eq_inf (Finset.univ : Finset (Fin n)) hne (fun j => if tg i = tg j then ⊤ else dist vs sq i j)
      have hR := Finset.inf_le (f := fun j => if tg i = tg j then ⊤ else max eps (dist vs sq i j)) (Finset.mem_univ j)
      rw [hj] at hlt1
      by_cases h : tg i = tg j
      · simp only [if_pos h] at hlt1; exact absurd hlt1 (not_lt.mpr le_top)
      · simp only [if_neg h] at hlt1 hR
        exact absurd (lt_of_lt_of_le (max_lt hlt2 hlt1) le_rfl) (not_lt.mpr hR)

end

end Cert.HardMining

end
-- ==== Proof.Payload.lean ====
/-
  The kernel's body arithmetic, read at one element.

  One trip of the kernel's loop holds a tile of 1024 rows (their unit vectors `v0`, squared norms `v2` and class
  labels `v4`) and a chunk of 1024 columns (`v23`, `v26`, `v29`, the same three for the column rows). It forms the
  1024 × 1024 block of squared distances `(sq r + sq q) - 2·⟨vs r, vs q⟩` — the inner products by one matrix product of
  the tile with the transposed chunk —, the block of label equalities, and folds, per tile row, the largest distance
  over the same-label columns into the carried maximum and the smallest distance over the other-label columns into the
  carried minimum. After the last trip the two carried columns are clipped below by `ε` and combined into the row's
  loss. Here each of these values is read at an index given by its coordinates, as a closed expression over the
  extended reals: a maximum over a row is a finite supremum from `⊥`, a minimum a finite infimum from `⊤`.
-/
import proofs.«165385_j16406775070902_2_alg».proof.Proof.Gen.KernelIdeal.Skeleton
import proofs.«165385_j16406775070902_2_alg».proof.Proof.HardMining
import Idealize.ShloMosaic.Lib.ValueIdx
import Idealize.ShloMosaic.Lib.Pipeline.Value
import Idealize.ShloMosaic.Lib.ValueLayout
import Idealize.ShloMosaic.PureOps.Ideal.Laws

noncomputable section

namespace Cert.Payload

open Idealize.ShloMosaic Idealize.ShloMosaic.ValueIdx
open Cert.KernelIdeal Cert.KernelIdeal.Gen
open scoped BigOperators

/-! ## The starting values of the carried pair, and the row's loss -/

/-- The carried maximum starts at `⊥` everywhere. -/
theorem pay1_apply (i : S1024x1.Idx) : k0_pay1 (F := Ideal) i = (⊥ : EReal) :=
  Cert.HardMining.ofBits_neg_inf

/-- The carried minimum starts at `⊤` everywhere. -/
theorem pay2_apply (i : S1024x1.Idx) : k0_pay2 (F := Ideal) i = (⊤ : EReal) :=
  Cert.HardMining.ofBits_pos_inf

/-- What is stored for tile row `r`: the row's loss from the two carried values, each clipped below by `ε`. -/
theorem pay7_apply (mp mn : FVec Ideal S1024x1 .f32) (r : Fin 1024) :
    k0_pay7 (F := Ideal) mp mn (ix2 r (0 : Fin 1))
      = Cert.HardMining.rowLoss (max (mp (ix2 r (0 : Fin 1))) Cert.HardMining.eps)
          (max (mn (ix2 r (0 : Fin 1))) Cert.HardMining.eps) := rfl

/-! ## Column vectors: one column broadcast over many, and a vector cast to a column -/

section Layout
variable {α : Type}

/-- An `[a, 1]` array broadcast to `[a, b]` reads, at `(p, c)`, the operand's row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The label equalities -/

/-- An integer comparison for equality is `1` exactly on equal words. -/
theorem cmpi_eq_ite {w : ℕ} (x y : BitVec w) : IntOp.cmpi .eq x y = if x = y then 1#1 else 0#1 := by
  unfold IntOp.cmpi
  by_cases h : x = y
  · subst h; simp
  · rw [if_neg h]
    show BitVec.ofBool (x == y) = 0#1
    rw [beq_eq_false_iff_ne.mpr h]; rfl

/-- The block of label equalities at `(r, q)`: `1` where tile row `r` and chunk column `q` carry the same label. -/
theorem pay4_apply (v4 : Vec Ideal S1024x1 .i32) (v29 : Vec Ideal S1x1024 .i32) (r q : Fin 1024) :
    k0_pay4 (F := Ideal) v4 v29 (ix2 r q)
      = if v4 (ix2 r (0 : Fin 1)) = v29 (ix2 (0 : Fin 1) q) then 1#1 else 0#1 := by
  unfold k0_pay4
  refine (cmpi_eq_ite _ _).trans ?_
  have e1 : broadcastTo S1024x1024 (shapeCast S1024x1 v4 shapeCasts_S1024x1_S1024x1) broadcasts_S1024x1_S1024x1024 (ix2 r q)
      = v4 (ix2 r (0 : Fin 1)) := by
    refine (broadcastTo_a1_ab_apply _ _ r q).trans ?_
    rw [shapeCast_self]
  have e2 : broadcastTo S1024x1024 (shapeCast S1x1024 v29 shapeCasts_S1x1024_S1x1024) broadcasts_S1x1024_S1024x1024 (ix2 r q)
      = v29 (ix2 (0 : Fin 1) q) := by
    refine (broadcastTo_1b_ab_apply _ _ r q).trans ?_
    rw [shapeCast_self]
  rw [e1, e2]

/-! ## The block of squared distances -/

/-- A product of an `m × k` by a `k × n` matrix into a zero accumulator, read at `(a, b)`: the sum over the contracted
    coordinate of the products of the entries. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The block of squared distances at `(r, q)`: the two squared norms' sum less twice the inner product of tile row `r`
    with chunk row `q` (the matrix product is with the chunk transposed, so its contracted coordinate runs along both
    rows). -/
theorem pay3_apply (v0 : Vec Ideal S1024x256 .bf16) (v2 : Vec Ideal S1024x1 .f32) (v23 : Vec Ideal S1024x256 .bf16)
    (v26 : Vec Ideal S1x1024 .f32) (r q : Fin 1024) :
    k0_pay3 (F := Ideal) v0 v2 v23 v26 (ix2 r q)
      = (v2 (ix2 r (0 : Fin 1)) + v26 (ix2 (0 : Fin 1) q))
          - Cert.HardMining.two * ∑ k : Fin 256, v0 (ix2 r k) * v23 (ix2 q k) := by
  have e1 : broadcastTo S1024x1024 (shapeCast S1024x1 v2 shapeCasts_S1024x1_S1024x1) broadcasts_S1024x1_S1024x1024 (ix2 r q)
      = v2 (ix2 r (0 : Fin 1)) := by
    refine (broadcastTo_a1_ab_apply _ _ r q).trans ?_
    rw [shapeCast_self]
  have e2 : broadcastTo S1024x1024 (shapeCast S1x1024 v26 shapeCasts_S1x1024_S1x1024) broadcasts_S1x1024_S1024x1024 (ix2 r q)
      = v26 (ix2 (0 : Fin 1) q) := by
    refine (broadcastTo_1b_ab_apply _ _ r q).trans ?_
    rw [shapeCast_self]
  have e3 : matmul (F := Ideal) (φ₁ := .bf16) (φ₂ := .bf16) dot_S1024x256_S256x1024_S1024x1024_1_0_0_1_n_n none
        (shapeCast S1024x256 v0 shapeCasts_S1024x256_S1024x256)
        (transpose S256x1024 [1, 0] (shapeCast S1024x256 v23 shapeCasts_S1024x256_S1024x256)
          transposes_S1024x256_p1_0_S256x1024)
        (constant (F := Ideal) S1024x1024 .f32 0x00000000#32) (ix2 r q)
      = ∑ k : Fin 256, v0 (ix2 r k) * v23 (ix2 q k) := by
    refine (matmul_plain_zero_apply _ none _ _ r q).trans ?_
    refine Finset.sum_congr rfl fun c _ => ?_
    rw [transpose_ix2_apply, shapeCast_self, shapeCast_self]
  unfold k0_pay3
  exact congrArg₂ (· - ·) (congrArg₂ (· + ·) e1 e2) (congrArg (Cert.HardMining.two * ·) e3)

/-! ## A row's maximum and minimum -/

/-- Over the extended reals a fold of `max` from `⊥` is the finite supremum … -/
theorem fold_max_bot_eq_sup {ι : Type} (s : Finset ι) (f : ι → EReal) : s.fold max ⊥ f = s.sup f := by
  classical
  induction s using Finset.induction_on with
  | empty => rfl
  | insert a s ha ih => rw [Finset.fold_insert ha, Finset.sup_insert, ih]

/-- … and a fold of `min` from `⊤` the finite infimum. -/
theorem fold_min_top_eq_inf {ι : Type} (s : Finset ι) (f : ι → EReal) : s.fold min ⊤ f = s.inf f := by
  classical
  induction s using Finset.induction_on with
  | empty => rfl
  | insert a s ha ih => rw [Finset.fold_insert ha, Finset.inf_insert, ih]

/-- A `minimumf` reduction over one axis, at the ideal values: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- In a matrix reduced along its rows, the source index over row `r` with column `q` inserted is `(r, q)`. -/
theorem lift_row {a b : ℕ} (h : (⟨2, ![a, b]⟩ : Shape).Reduces [1] ⟨1, ![a]⟩) (r : Fin a) (q : Fin b) :
    h.lift (ix1 r) q = ix2 r q := by
  funext c; apply Fin.ext
  match c with
  | ⟨0, _⟩ => rfl
  | ⟨1, _⟩ => rfl

/-- The maximum along each row of an f32 matrix, from the word of `-∞`: at row `r` the supremum of the row's entries. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ src 0xFF800000#32 h hφ hacc (ix1 r)
      = Finset.univ.sup fun q : Fin b => src (ix2 r q) := by
  refine (Ideal.multiReduction_maximumf_single src _ h hφ hacc (ix1 r)).trans ?_
  refine Eq.trans ?_ (fold_max_bot_eq_sup (Finset.univ : Finset (Fin b)) fun q => src (ix2 r q))
  have hf : (src ∘ h.lift (ix1 r)) = fun q : Fin b => src (ix2 r q) :=
    funext fun q => congrArg src (lift_row h r q)
  exact congrArg₂ (fun init f => Finset.fold max init f (Finset.univ : Finset (Fin b))) Cert.HardMining.ofBits_neg_inf hf

/-- The minimum along each row of an f32 matrix, from the word of `+∞`: at row `r` the infimum of the row's entries. -/
theorem rowMin_apply {a b : ℕ} (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (r : Fin a) :
    multiReduction (F := Ideal) .minimumf [1] ⟨1, ![a]⟩ src 0x7F800000#32 h hφ hacc (ix1 r)
      = Finset.univ.inf fun q : Fin b => src (ix2 r q) := by
  refine (multiReduction_minimumf_single src _ h hφ hacc (ix1 r)).trans ?_
  refine Eq.trans ?_ (fold_min_top_eq_inf (Finset.univ : Finset (Fin b)) fun q => src (ix2 r q))
  have hf : (src ∘ h.lift (ix1 r)) = fun q : Fin b => src (ix2 r q) :=
    funext fun q => congrArg src (lift_row h r q)
  exact congrArg₂ (fun init f => Finset.fold min init f (Finset.univ : Finset (Fin b))) Cert.HardMining.ofBits_pos_inf hf

/-! ## One trip's update of the carried maximum and minimum -/

/-- The carried maximum after a trip, at tile row `r`: the larger of the value carried in and the largest squared
    distance to a chunk column of the same label (`⊥` when the chunk has none). -/
theorem pay5_apply (v0 : Vec Ideal S1024x256 .bf16) (v2 : Vec Ideal S1024x1 .f32) (v4 : Vec Ideal S1024x1 .i32)
    (arg9 : FVec Ideal S1024x1 .f32) (v23 : Vec Ideal S1024x256 .bf16) (v26 : Vec Ideal S1x1024 .f32)
    (v29 : Vec Ideal S1x1024 .i32) (r : Fin 1024) :
    k0_pay5 (F := Ideal) v0 v2 v4 arg9 v23 v26 v29 (ix2 r (0 : Fin 1))
      = max (arg9 (ix2 r (0 : Fin 1)))
          (Finset.univ.sup fun q : Fin 1024 =>
            if v4 (ix2 r (0 : Fin 1)) = v29 (ix2 (0 : Fin 1) q) then
              (v2 (ix2 r (0 : Fin 1)) + v26 (ix2 (0 : Fin 1) q))
                - Cert.HardMining.two * ∑ k : Fin 256, v0 (ix2 r k) * v23 (ix2 q k)
            else ⊥) := by
  unfold k0_pay5
  refine (maximumf_apply _ _ _).trans (congrArg (max (arg9 (ix2 r (0 : Fin 1)))) ?_)
  refine (shapeCast_a_a1_apply _ _ r (0 : Fin 1)).trans ?_
  refine (rowMax_apply _ _ _ _ r).trans ?_
  refine Finset.sup_congr rfl fun q _ => ?_
  rw [select_apply, pay4_apply, pay3_apply, broadcast_apply]
  by_cases hq : v4 (ix2 r (0 : Fin 1)) = v29 (ix2 (0 : Fin 1) q)
  · rw [if_pos hq, if_pos hq, select_one]
  · rw [if_neg hq, if_neg hq, select_zero]
    exact Cert.HardMining.ofBits_neg_inf

/-- The carried minimum after a trip, at tile row `r`: the smaller of the value carried in and the smallest squared
    distance to a chunk column of another label (`⊤` when the chunk has none). -/
theorem pay6_apply (v0 : Vec Ideal S1024x256 .bf16) (v2 : Vec Ideal S1024x1 .f32) (v4 : Vec Ideal S1024x1 .i32)
    (arg10 : FVec Ideal S1024x1 .f32) (v23 : Vec Ideal S1024x256 .bf16) (v26 : Vec Ideal S1x1024 .f32)
    (v29 : Vec Ideal S1x1024 .i32) (r : Fin 1024) :
    k0_pay6 (F := Ideal) v0 v2 v4 arg10 v23 v26 v29 (ix2 r (0 : Fin 1))
      = min (arg10 (ix2 r (0 : Fin 1)))
          (Finset.univ.inf fun q : Fin 1024 =>
            if v4 (ix2 r (0 : Fin 1)) = v29 (ix2 (0 : Fin 1) q) then ⊤
            else
              (v2 (ix2 r (0 : Fin 1)) + v26 (ix2 (0 : Fin 1) q))
                - Cert.HardMining.two * ∑ k : Fin 256, v0 (ix2 r k) * v23 (ix2 q k)) := by
  unfold k0_pay6
  refine (minimumf_apply _ _ _).trans (congrArg (min (arg10 (ix2 r (0 : Fin 1)))) ?_)
  refine (shapeCast_a_a1_apply _ _ r (0 : Fin 1)).trans ?_
  refine (rowMin_apply _ _ _ _ r).trans ?_
  refine Finset.inf_congr rfl fun q _ => ?_
  rw [select_apply, pay4_apply, pay3_apply, broadcast_apply]
  by_cases hq : v4 (ix2 r (0 : Fin 1)) = v29 (ix2 (0 : Fin 1) q)
  · rw [if_pos hq, if_pos hq, select_one]
    exact Cert.HardMining.ofBits_pos_inf
  · rw [if_neg hq, if_neg hq, select_zero]

end Cert.Payload

end
-- ==== Proof.KIPrefix.lean ====
/-
  The kernel's host operations before its region, read back and joined to the reference's stages.

  The kernel's first operations normalise the rows and sum the squares of the normalised rows exactly as the
  reference's do, so the arrays they leave are the reference's stages as whole terms. The operations after them only
  change format or shape: the normalised rows narrowed (the identity on extended reals), the squared norms as a column
  and as a row, the labels as a column and as a row. The two arguments are written by no operation.
-/
import proofs.«165385_j16406775070902_2_alg».proof.Proof.KIBody
import proofs.«165385_j16406775070902_2_alg».proof.Proof.Gen.ReferenceIdeal.Read
import Idealize.ShloMosaic.Lib.StableHlo.Run

noncomputable section

namespace Cert.KernelIdeal.Prefix

open Cert.KernelIdeal Cert.KernelIdeal.Gen Cert.KernelIdeal.Hand
open Idealize.ShloMosaic Idealize.ShloMosaic.TcCoe Idealize.ShloMosaic.ValueIdx Idealize.ShloMosaic.StableHlo
open Idealize.SL.Sem

/-! ## At any float instance: the arguments kept, and the labels as a column and as a row -/

section AnyInstance
variable {F : FTy → Type} [FloatOps F]
variable (m : (ℓ : Loc nD τ sig) → Buf (Elt F) ℓ) (ρ : Dev nD → PrngReg) (c : Dev nD)

/-- No operation writes the first argument. -/
theorem arg0_kept : V m ρ c main_arg0 = m ((c : Thread nD τ).loc main_arg0) := by
  show StableHlo.after hostOps0 _ (Proc.devRef .tc main_arg0) = _
  after_results

/-- No operation writes the second argument. -/
theorem arg1_kept : V m ρ c main_arg1 = m ((c : Thread nD τ).loc main_arg1) := by
  show StableHlo.after hostOps0 _ (Proc.devRef .tc main_arg1) = _
  after_results

end AnyInstance

section AnyInstanceLabels
variable {F : FTy → Type} [FloatOps F]
variable (m : (ℓ : Loc nD τ sig) → Buf (Elt F) ℓ) (ρ : Dev nD → PrngReg) (c : Dev nD)

/-- The labels as a column: entry `(i, 0)` is label `i`. -/
theorem v11_apply (i : Fin 8192) :
    (V m ρ c main_v11 : S8192x1.Idx → BitVec 32) (ix2 i (0 : Fin 1))
      = (m ((c : Thread nD τ).loc main_arg1) : S8192.Idx → BitVec 32) (ix1 i) := by
  have e : (V m ρ c main_v11 : S8192x1.Idx → BitVec 32)
      = shapeCast S8192x1 (m ((c : Thread nD τ).loc main_arg1) : S8192.Idx → BitVec 32) shapeCasts_S8192_S8192x1 := by
    show StableHlo.after hostOps0 _ (Proc.devRef .tc main_v11) = _
    after_results
    rfl
  rw [e]
  exact shapeCast_apply _ _ _ _ (by
    show (S8192.rowMajor (ix1 i)).val = (S8192x1.rowMajor (ix2 i (0 : Fin 1))).val
    rw [Shape.rowMajor_val_one, Shape.rowMajor_val_two]
    show i.val = i.val * 1 + 0
    omega)

/-- The labels as a row: entry `(0, j)` is label `j`. -/
theorem v12_apply (j : Fin 8192) :
    (V m ρ c main_v12 : S1x8192.Idx → BitVec 32) (ix2 (0 : Fin 1) j)
      = (m ((c : Thread nD τ).loc main_arg1) : S8192.Idx → BitVec 32) (ix1 j) := by
  have e : (V m ρ c main_v12 : S1x8192.Idx → BitVec 32)
      = shapeCast S1x8192 (m ((c : Thread nD τ).loc main_arg1) : S8192.Idx → BitVec 32) shapeCasts_S8192_S1x8192 := by
    show StableHlo.after hostOps0 _ (Proc.devRef .tc main_v12) = _
    after_results
    rfl
  rw [e]
  exact shapeCast_apply _ _ _ _ (by
    show (S8192.rowMajor (ix1 j)).val = (S1x8192.rowMajor (ix2 (0 : Fin 1) j)).val
    rw [Shape.rowMajor_val_one, Shape.rowMajor_val_two]
    show j.val = 0 * 8192 + j.val
    omega)

end AnyInstanceLabels

/-! ## At the ideal instance: the normalised rows and their squared norms are the reference's stages -/

section AtIdeal
variable (m : (ℓ : Loc nD τ sig) → Buf (Elt Ideal) ℓ) (ρ : Dev nD → PrngReg) (c : Dev nD)

/-- The normalised rows are the reference's, as one term. -/
theorem v5_eq : (V m ρ c main_v5 : S8192x256.Idx → EReal)
    = Cert.ReferenceIdeal.Read.val_main_v5 (F := Ideal) (m ((c : Thread nD τ).loc main_arg0)) := by
  show StableHlo.after hostOps0 _ (Proc.devRef .tc main_v5) = _
  after_results
  rfl

/-- The squared norms as a column are the reference's, as one term. -/
theorem v8_eq : (V m ρ c main_v8 : S8192x1.Idx → EReal)
    = Cert.ReferenceIdeal.Read.val_main_v8 (F := Ideal) (m ((c : Thread nD τ).loc main_arg0)) := by
  show StableHlo.after hostOps0 _ (Proc.devRef .tc main_v8) = _
  after_results
  rfl

end AtIdeal

section AtIdealReads
variable (m : (ℓ : Loc nD τ sig) → Buf (Elt Ideal) ℓ) (ρ : Dev nD → PrngReg) (c : Dev nD)

/-- The narrowed normalised rows read the reference's normalised rows: the format change is the identity. -/
theorem v9_apply (i : Fin 8192) (k : Fin 256) :
    (V m ρ c main_v9 : S8192x256.Idx → EReal) (ix2 i k)
      = Cert.ReferenceIdeal.Read.val_main_v5 (F := Ideal) (m ((c : Thread nD τ).loc main_arg0)) (ix2 i k) := by
  have e : (V m ρ c main_v9 : S8192x256.Idx → EReal)
      = Cert.ReferenceIdeal.Read.val_main_v5 (F := Ideal) (m ((c : Thread nD τ).loc main_arg0)) := by
    show StableHlo.after hostOps0 _ (Proc.devRef .tc main_v9) = _
    after_results
    rfl
  rw [e]

/-- The squared norms as a column: entry `(i, 0)` is row `i`'s. -/
theorem v8_apply (i : Fin 8192) :
    (V m ρ c main_v8 : S8192x1.Idx → EReal) (ix2 i (0 : Fin 1))
      = Cert.ReferenceIdeal.Read.val_main_v7 (F := Ideal) (m ((c : Thread nD τ).loc main_arg0)) (ix1 i) := by
  rw [v8_eq, Cert.ReferenceIdeal.Read.val_main_v8_apply]
  exact congrArg _ (funext fun a => Fin.ext (by match a with | ⟨0, _⟩ => rfl))

/-- The squared norms as a row: entry `(0, j)` is row `j`'s. -/
theorem v10_apply (j : Fin 8192) :
    (V m ρ c main_v10 : S1x8192.Idx → EReal) (ix2 (0 : Fin 1) j)
      = Cert.ReferenceIdeal.Read.val_main_v7 (F := Ideal) (m ((c : Thread nD τ).loc main_arg0)) (ix1 j) := by
  have e : (V m ρ c main_v10 : S1x8192.Idx → EReal)
      = shapeCast S1x8192 (Cert.ReferenceIdeal.Read.val_main_v8 (F := Ideal) (m ((c : Thread nD τ).loc main_arg0)))
          shapeCasts_S8192x1_S1x8192 := by
    show StableHlo.after hostOps0 _ (Proc.devRef .tc main_v10) = _
    after_results
    rfl
  rw [e, shapeCast_apply _ _ (ix2 (0 : Fin 1) j) (ix2 j (0 : Fin 1)) (by
    show (S8192x1.rowMajor (ix2 j (0 : Fin 1))).val = (S1x8192.rowMajor (ix2 (0 : Fin 1) j)).val
    rw [Shape.rowMajor_val_two, Shape.rowMajor_val_two]
    show j.val * 1 + 0 = 0 * 8192 + j.val
    omega), Cert.ReferenceIdeal.Read.val_main_v8_apply]
  exact congrArg _ (funext fun a => Fin.ext (by match a with | ⟨0, _⟩ => rfl))

end AtIdealReads

end Cert.KernelIdeal.Prefix

end
-- ==== Proof.RefSide.lean ====
/-
  The reference's result as the batch-hard margin loss of the normalised rows.
-/
import proofs.«165385_j16406775070902_2_alg».proof.Proof.Gen.ReferenceIdeal.Read
import proofs.«165385_j16406775070902_2_alg».proof.Proof.HardMining

noncomputable section

namespace Cert.RefSide

open Cert.ReferenceIdeal Cert.ReferenceIdeal.Gen Cert.ReferenceIdeal.Read Idealize.ShloMosaic Idealize.ShloMosaic.ValueIdx
open scoped BigOperators

/-- The normalised rows, their squared norms and the labels, by coordinates. -/
def vsOf (x0 : (⟨S8192x256, .f32⟩ : BufTy).Contents (Elt Ideal)) : Fin 8192 → Fin 256 → EReal :=
  fun i k => val_main_v5 (F := Ideal) x0 (ix2 i k)
def sqOf (x0 : (⟨S8192x256, .f32⟩ : BufTy).Contents (Elt Ideal)) : Fin 8192 → EReal :=
  fun i => val_main_v7 (F := Ideal) x0 (ix1 i)
def tgOf (x1 : (⟨S8192, .i32⟩ : BufTy).Contents (Elt Ideal)) : Fin 8192 → BitVec 32 :=
  fun i => x1 (ix1 i)

/-! ## The index maps of the layout operations, at an index given by coordinates -/

theorem idx_row (i j : Fin 8192) : idx_main_v8 (idx_main_v10 (ix2 i j)) = ix1 i :=
  funext fun a => Fin.ext (by match a with | ⟨0, _⟩ => rfl)
theorem idx_col (i j : Fin 8192) : idx_main_v9 (idx_main_v11 (ix2 i j)) = ix1 j :=
  funext fun a => Fin.ext (by match a with | ⟨0, _⟩ => rfl)
theorem idx_lhs (i j : Fin 8192) (k : Fin 256) : lidx_main_v14 (ix2 i j) k = ix2 i k :=
  funext fun a => Fin.ext (by match a with | ⟨0, _⟩ => rfl | ⟨1, _⟩ => rfl)
theorem idx_rhs (i j : Fin 8192) (k : Fin 256) : idx_main_v13 (ridx_main_v14 (ix2 i j) k) = ix2 j k :=
  funext fun a => Fin.ext (by match a with | ⟨0, _⟩ => rfl | ⟨1, _⟩ => rfl)
theorem idx_tgrow (i j : Fin 8192) : idx_main_v19 (idx_main_v21 (ix2 i j)) = ix1 i :=
  funext fun a => Fin.ext (by match a with | ⟨0, _⟩ => rfl)
theorem idx_tgcol (i j : Fin 8192) : idx_main_v20 (idx_main_v22 (ix2 i j)) = ix1 j :=
  funext fun a => Fin.ext (by match a with | ⟨0, _⟩ => rfl)

/-! ## The squared distance, its clip, and the two masked matrices -/

/-- Entry `(i, j)` of the distance matrix is the squared distance of rows `i` and `j`. -/
theorem dist_read (x0 : (⟨S8192x256, .f32⟩ : BufTy).Contents (Elt Ideal)) (i j : Fin 8192) :
    val_main_v17 (F := Ideal) x0 (ix2 i j) = Cert.HardMining.dist (vsOf x0) (sqOf x0) i j := by
  rw [val_main_v17_apply, val_main_v12_apply, val_main_v10_apply, val_main_v8_apply, val_main_v11_apply,
    val_main_v9_apply, val_main_v16_apply, val_main_v15_apply, val_main_cst_1_apply, val_main_v14_apply,
    idx_row, idx_col]
  simp only [Ideal.subf_def, Ideal.addf_def, Ideal.mulf_def, Ideal.ofBits_def]
  unfold Cert.HardMining.dist Cert.HardMining.two vsOf sqOf
  refine congrArg (fun t => _ - _ * t) (Finset.sum_congr rfl fun k _ => ?_)
  rw [val_main_v13_apply, idx_lhs, idx_rhs]

/-- A select on the word of an equality test is the `if` on the equality. -/
theorem select_cmpi_eq {α : Type} (a b : BitVec 32) (p q : α) :
    Scalar.select (IntOp.cmpi .eq a b) p q = if a = b then p else q := by
  unfold Scalar.select IntOp.cmpi
  by_cases h : a = b
  · subst h; simp
  · have hb : (a == b) = false := by simpa using h
    rw [if_neg h]
    show (if BitVec.ofBool (a == b) = 1 then p else q) = q
    rw [hb]; rfl

/-- Entry `(i, j)` of the clipped matrix. -/
theorem clip_read (x0 : (⟨S8192x256, .f32⟩ : BufTy).Contents (Elt Ideal)) (i j : Fin 8192) :
    val_main_v18 (F := Ideal) x0 (ix2 i j)
      = max Cert.HardMining.eps (Cert.HardMining.dist (vsOf x0) (sqOf x0) i j) := by
  rw [val_main_v18_apply, val_main_call0_v1_apply, val_main_call0_v0_apply, val_main_cst_2_apply, dist_read]
  rfl

/-- Entry `(i, j)` of the same-label mask. -/
theorem same_read (x1 : (⟨S8192, .i32⟩ : BufTy).Contents (Elt Ideal)) (i j : Fin 8192) :
    val_main_v23 (F := Ideal) x1 (ix2 i j) = IntOp.cmpi .eq (tgOf x1 i) (tgOf x1 j) := by
  rw [val_main_v23_apply, val_main_v21_apply, val_main_v19_apply, val_main_v22_apply, val_main_v20_apply,
    idx_tgrow, idx_tgcol]
  rfl

/-- Entry `(i, j)` of the matrix the maximum is taken over: the clipped distance on the same label, `⊥` elsewhere. -/
theorem posMat_read (x0 : (⟨S8192x256, .f32⟩ : BufTy).Contents (Elt Ideal))
    (x1 : (⟨S8192, .i32⟩ : BufTy).Contents (Elt Ideal)) (i j : Fin 8192) :
    val_main_v24 (F := Ideal) x0 x1 (ix2 i j)
      = if tgOf x1 i = tgOf x1 j then max Cert.HardMining.eps (Cert.HardMining.dist (vsOf x0) (sqOf x0) i j) else ⊥ := by
  rw [val_main_v24_apply, same_read, clip_read, val_main_call1_v0_apply, val_main_cst_3_apply, select_cmpi_eq,
    Ideal.ofBits_def, Cert.HardMining.ofBits_neg_inf]

/-- Entry `(i, j)` of the matrix the minimum is taken over: `⊤` on the same label, the clipped distance elsewhere. -/
theorem negMat_read (x0 : (⟨S8192x256, .f32⟩ : BufTy).Contents (Elt Ideal))
    (x1 : (⟨S8192, .i32⟩ : BufTy).Contents (Elt Ideal)) (i j : Fin 8192) :
    val_main_v26 (F := Ideal) x0 x1 (ix2 i j)
      = if tgOf x1 i = tgOf x1 j then ⊤ else max Cert.HardMining.eps (Cert.HardMining.dist (vsOf x0) (sqOf x0) i j) := by
  rw [val_main_v26_apply, same_read, clip_read, val_main_call2_v0_apply, val_main_cst_5_apply, select_cmpi_eq,
    Ideal.ofBits_def, Cert.HardMining.ofBits_pos_inf]

/-! ## The two row reductions -/

/-- A fold of `max` from `⊥` is the supremum, a fold of `min` from `⊤` the infimum. -/
theorem fold_max_bot {ι : Type} (s : Finset ι) (f : ι → EReal) : s.fold max ⊥ f = s.sup f := by
  refine eq_of_forall_ge_iff fun c => ?_
  rw [Finset.fold_max_le, Finset.sup_le_iff]
  exact ⟨fun h => h.2, fun h => ⟨bot_le, h⟩⟩
theorem fold_min_top {ι : Type} (s : Finset ι) (f : ι → EReal) : s.fold min ⊤ f = s.inf f := by
  refine eq_of_forall_le_iff fun c => ?_
  rw [Finset.le_fold_min, Finset.le_inf_iff]
  exact ⟨fun h => h.2, fun h => ⟨le_top, h⟩⟩

/-- The reduced index `i` with column `k` put back is `(i, k)`. -/
theorem lift_row (h : S8192x8192.Reduces [1] S8192) (i : Fin 8192) (k : Fin 8192) :
    h.lift (ix1 i) k = ix2 i k := by
  funext c; apply Fin.ext
  fin_cases c <;> rfl

/-- Row `i`'s maximum over the same-label columns is its hardest positive. -/
theorem pos_read (x0 : (⟨S8192x256, .f32⟩ : BufTy).Contents (Elt Ideal))
    (x1 : (⟨S8192, .i32⟩ : BufTy).Contents (Elt Ideal)) (i : Fin 8192) :
    val_main_v25 (F := Ideal) x0 x1 (ix1 i)
      = Cert.HardMining.refPos (vsOf x0) (sqOf x0) (tgOf x1) i := by
  have h : S8192x8192.Reduces [1] S8192 := by decide
  unfold val_main_v25
  rw [Host.reduce_eq_fold_single FloatOps.maximumf _ _ reducesTo_S8192x8192_S8192_d1 h h_S_]
  have hf : (val_main_v24 (F := Ideal) x0 x1 ∘ h.lift (ix1 i))
      = fun k : Fin 8192 => if tgOf x1 i = tgOf x1 k
          then max Cert.HardMining.eps (Cert.HardMining.dist (vsOf x0) (sqOf x0) i k) else ⊥ :=
    funext fun k => by
      show val_main_v24 (F := Ideal) x0 x1 (h.lift (ix1 i) k) = _
      rw [show h.lift (ix1 i) k = ix2 i (k : Fin 8192) from lift_row h i k]
      exact posMat_read x0 x1 i k
  rw [hf, val_main_cst_4_apply, Ideal.ofBits_def, Cert.HardMining.ofBits_neg_inf]
  exact fold_max_bot _ _

/-- Row `i`'s minimum over the other-label columns is its hardest negative. -/
theorem neg_read (x0 : (⟨S8192x256, .f32⟩ : BufTy).Contents (Elt Ideal))
    (x1 : (⟨S8192, .i32⟩ : BufTy).Contents (Elt Ideal)) (i : Fin 8192) :
    val_main_v27 (F := Ideal) x0 x1 (ix1 i)
      = Cert.HardMining.refNeg (vsOf x0) (sqOf x0) (tgOf x1) i := by
  have h : S8192x8192.Reduces [1] S8192 := by decide
  unfold val_main_v27
  rw [Host.reduce_eq_fold_single FloatOps.minimumf _ _ reducesTo_S8192x8192_S8192_d1 h h_S_]
  have hf : (val_main_v26 (F := Ideal) x0 x1 ∘ h.lift (ix1 i))
      = fun k : Fin 8192 => if tgOf x1 i = tgOf x1 k
          then ⊤ else max Cert.HardMining.eps (Cert.HardMining.dist (vsOf x0) (sqOf x0) i k) :=
    funext fun k => by
      show val_main_v26 (F := Ideal) x0 x1 (h.lift (ix1 i) k) = _
      rw [show h.lift (ix1 i) k = ix2 i (k : Fin 8192) from lift_row h i k]
      exact negMat_read x0 x1 i k
  rw [hf, val_main_cst_6_apply, Ideal.ofBits_def, Cert.HardMining.ofBits_pos_inf]
  exact fold_min_top _ _

/-! ## The rows' losses and their mean -/

/-- Row `i`'s loss. -/
theorem row_read (x0 : (⟨S8192x256, .f32⟩ : BufTy).Contents (Elt Ideal))
    (x1 : (⟨S8192, .i32⟩ : BufTy).Contents (Elt Ideal)) (i : Fin 8192) :
    val_main_v31 (F := Ideal) x0 x1 (ix1 i)
      = Cert.HardMining.rowLoss (Cert.HardMining.refPos (vsOf x0) (sqOf x0) (tgOf x1) i)
          (Cert.HardMining.refNeg (vsOf x0) (sqOf x0) (tgOf x1) i) := by
  rw [val_main_v31_apply, val_main_v30_apply, val_main_v28_apply, pos_read, neg_read, val_main_v29_apply,
    val_main_cst_7_apply, val_main_call3_v0_apply, val_main_call3_cst_apply]
  rfl

/-- A rank-1 index set is its coordinate's range, so a sum over it is the sum over the coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result is the batch-hard margin loss of the normalised rows. -/
theorem ref_value (x0 : (⟨S8192x256, .f32⟩ : BufTy).Contents (Elt Ideal))
    (x1 : (⟨S8192, .i32⟩ : BufTy).Contents (Elt Ideal)) :
    val_main_v33 (F := Ideal) x0 x1
      = fun _ => Cert.HardMining.loss (fun i =>
          Cert.HardMining.rowLoss (Cert.HardMining.refPos (vsOf x0) (sqOf x0) (tgOf x1) i)
            (Cert.HardMining.refNeg (vsOf x0) (sqOf x0) (tgOf x1) i)) := by
  funext z
  rw [val_main_v33_apply, val_main_v32_apply, val_main_cst_8_apply, val_main_cst_9_apply,
    sum_idx1 (val_main_v31 (F := Ideal) x0 x1)]
  simp only [row_read]
  rfl

end Cert.RefSide

end
-- ==== Proof.LibChunks.lean ====
/-
  A maximum or minimum over an initial segment of the naturals, taken chunk by chunk.

  The segment `[0, m·(n+1))` is the segment `[0, m·n)` followed by the `m` numbers `m·n + q`, `q < m`, so a supremum
  (infimum) over it is the larger (smaller) of the supremum (infimum) over the shorter segment and the one over the
  last chunk. A supremum (infimum) over the segment `[0, N)` of a function given on `Fin N` and extended by `⊥` (`⊤`)
  is the one over `Fin N`.
-/
import Mathlib

namespace Cert.Chunks

variable {α : Type*} [CompleteLinearOrder α]

/-- The supremum over `[0, m·(n+1))` is the larger of the supremum over `[0, m·n)` and the supremum over the last
    chunk `m·n + q`, `q < m`: a number below `m·(n+1)` is below `m·n` or is `m·n + q` for one `q < m`. -/
theorem sup_range_chunk (g : ℕ → α) (m n : ℕ) :
    (Finset.range (m * (n + 1))).sup g
      = max ((Finset.range (m * n)).sup g) (Finset.univ.sup fun q : Fin m => g (m * n + q.val)) := by
  have e : m * (n + 1) = m * n + m := by ring
  rw [e]
  refine eq_of_forall_ge_iff fun c => ?_
  rw [max_le_iff, Finset.sup_le_iff, Finset.sup_le_iff, Finset.sup_le_iff]
  constructor
  · intro h
    refine ⟨fun j hj => h j ?_, fun q _ => h _ ?_⟩
    · rw [Finset.mem_range] at hj ⊢; omega
    · rw [Finset.mem_range]; have := q.isLt; omega
  · rintro ⟨h1, h2⟩ j hj
    rw [Finset.mem_range] at hj
    by_cases hlt : j < m * n
    · exact h1 j (Finset.mem_range.2 hlt)
    · have hq : j - m * n < m := by omega
      have h3 : g (m * n + (j - m * n)) ≤ c := h2 ⟨j - m * n, hq⟩ (Finset.mem_univ _)
      rwa [Nat.add_sub_cancel' (not_lt.1 hlt)] at h3

/-- The infimum over `[0, m·(n+1))` is the smaller of the infimum over `[0, m·n)` and the infimum over the last
    chunk `m·n + q`, `q < m`. -/
theorem inf_range_chunk (g : ℕ → α) (m n : ℕ) :
    (Finset.range (m * (n + 1))).inf g
      = min ((Finset.range (m * n)).inf g) (Finset.univ.inf fun q : Fin m => g (m * n + q.val)) := by
  have e : m * (n + 1) = m * n + m := by ring
  rw [e]
  refine eq_of_forall_le_iff fun c => ?_
  rw [le_min_iff, Finset.le_inf_iff, Finset.le_inf_iff, Finset.le_inf_iff]
  constructor
  · intro h
    refine ⟨fun j hj => h j ?_, fun q _ => h _ ?_⟩
    · rw [Finset.mem_range] at hj ⊢; omega
    · rw [Finset.mem_range]; have := q.isLt; omega
  · rintro ⟨h1, h2⟩ j hj
    rw [Finset.mem_range] at hj
    by_cases hlt : j < m * n
    · exact h1 j (Finset.mem_range.2 hlt)
    · have hq : j - m * n < m := by omega
      have h3 : c ≤ g (m * n + (j - m * n)) := h2 ⟨j - m * n, hq⟩ (Finset.mem_univ _)
      rwa [Nat.add_sub_cancel' (not_lt.1 hlt)] at h3

/-- The supremum over `[0, N)` of a function on `Fin N` extended by `⊥` is its supremum over `Fin N`. -/
theorem sup_range_eq_univ (N : ℕ) (f : Fin N → α) :
    (Finset.range N).sup (fun j => if h : j < N then f ⟨j, h⟩ else ⊥) = Finset.univ.sup f := by
  refine eq_of_forall_ge_iff fun c => ?_
  rw [Finset.sup_le_iff, Finset.sup_le_iff]
  constructor
  · intro h q _
    have h1 : (if h : q.val < N then f ⟨q.val, h⟩ else ⊥) ≤ c := h q.val (Finset.mem_range.2 q.isLt)
    rwa [dif_pos q.isLt] at h1
  · intro h j hj
    have hj' : j < N := Finset.mem_range.1 hj
    show (if h : j < N then f ⟨j, h⟩ else ⊥) ≤ c
    rw [dif_pos hj']
    exact h ⟨j, hj'⟩ (Finset.mem_univ _)

/-- The infimum over `[0, N)` of a function on `Fin N` extended by `⊤` is its infimum over `Fin N`. -/
theorem inf_range_eq_univ (N : ℕ) (f : Fin N → α) :
    (Finset.range N).inf (fun j => if h : j < N then f ⟨j, h⟩ else ⊤) = Finset.univ.inf f := by
  refine eq_of_forall_le_iff fun c => ?_
  rw [Finset.le_inf_iff, Finset.le_inf_iff]
  constructor
  · intro h q _
    have h1 : c ≤ (if h : q.val < N then f ⟨q.val, h⟩ else ⊤) := h q.val (Finset.mem_range.2 q.isLt)
    rwa [dif_pos q.isLt] at h1
  · intro h j hj
    have hj' : j < N := Finset.mem_range.1 hj
    show c ≤ (if h : j < N then f ⟨j, h⟩ else ⊤)
    rw [dif_pos hj']
    exact h ⟨j, hj'⟩ (Finset.mem_univ _)

end Cert.Chunks
-- ==== Proof.KICarried.lean ====
/-
  The carried pair after the eight trips.

  The kernel's loop walks the 8192 columns in eight chunks of 1024. Before trip `n` the carried maximum at tile row `r`
  is the supremum, over the columns `j < 1024·n` of the same label as row `r`, of the squared distance
  `(sq r + sq j) - 2·⟨vs r, vs j⟩`, and the carried minimum the infimum of the same distance over the columns
  `j < 1024·n` of another label: both start empty (`⊥`, `⊤`), and a trip joins the chunk `1024·n ≤ j < 1024·(n+1)` to the
  segment, since the chunk's loads read the whole arrays at the offset `1024·n`. After the eighth trip the segment is
  all 8192 columns.
-/
import proofs.«165385_j16406775070902_2_alg».proof.Proof.KIBody
import proofs.«165385_j16406775070902_2_alg».proof.Proof.Payload
import proofs.«165385_j16406775070902_2_alg».proof.Proof.HardMining
import proofs.«165385_j16406775070902_2_alg».proof.Proof.LibChunks

set_option maxRecDepth 16384

noncomputable section

namespace Cert.KernelIdeal.Carried

open Cert.KernelIdeal Cert.KernelIdeal.Gen Cert.KernelIdeal.Hand
open Idealize.ShloMosaic Idealize.ShloMosaic.ValueIdx Idealize.ShloMosaic.TcCoe
open Idealize.SL Idealize.SL.Sem
open scoped BigOperators

/-! ## The trip count, and what the loads read -/

/-- The loop makes eight trips. -/
theorem trips_eq : k0_t1_loop.trips = 8 := by decide

/-- The zero offsets of a whole-buffer load, as a function. -/
theorem hz2 : (![0, 0] : Fin 2 → Nat) = fun _ => 0 := funext fun a => by fin_cases a <;> rfl

section Loads
variable {F : FTy → Type} [FloatOps F]

/-- A load of a whole rank-2 buffer at zero offsets reads the buffer's contents. -/
theorem readAt_whole {d : Fin 2 → Nat} {e : EltTy} (arg : Memref sig .tc .vmem ⟨2, d⟩ e) (harg : arg.IsWhole)
    (inb : ∀ a, (![0, 0] : Fin 2 → Nat) a + (⟨2, d⟩ : Shape).size a ≤ (⟨2, d⟩ : Shape).size a) (x : Vec F ⟨2, d⟩ e) :
    View.readAt (Elt F) arg.view (Rect.unit (s := ⟨2, d⟩) ![0, 0] (⟨2, d⟩ : Shape).size inb).toLoadRect (harg.unread x) = x := by
  rw [View.readAt_eq_ld, harg.read_unread, View.ld_unit_zero hz2]

end Loads

section Trip
variable {F : FTy → Type} [FloatOps F]

/-- One trip's result: the two payloads of the carried pair and the chunk's three loads. -/
theorem tripR_eq (𝒱 : Variants) (c : Dev nD) (bd : Option 𝒱.V) (i : grid0.Coords)
    (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (v0 : Vec F S1024x256 .bf16) (v2 : Vec F S1024x1 .f32) (v4 : Vec F S1024x1 .i32)
    (X2 : BufTy.Contents (Elt F) arg2.view.ty) (X4 : BufTy.Contents (Elt F) arg4.view.ty) (X6 : BufTy.Contents (Elt F) arg6.view.ty)
    (k : Fin k0_t1_loop.trips) (acc : FVec F S1024x1 .f32 × FVec F S1024x1 .f32) :
    tripR_k0_t1 (F := F) 𝒱 c bd i arg1 harg1 arg2 harg2 arg3 harg3 arg4 harg4 arg5 harg5 arg6 harg6 arg7 harg7 v0 v2 v4 X2 X4 X6 k acc
      = (k0_pay5 v0 v2 v4 acc.1
            (View.readAt (Elt F) arg2.view (Rect.unit (s := S8192x256) (k0_off1 k) S1024x256.size (k0_off1_inb k)).toLoadRect X2)
            (View.readAt (Elt F) arg4.view (Rect.unit (s := S1x8192) (k0_off2 k) S1x1024.size (k0_off2_inb k)).toLoadRect X4)
            (View.readAt (Elt F) arg6.view (Rect.unit (s := S1x8192) (k0_off2 k) S1x1024.size (k0_off2_inb k)).toLoadRect X6),
         k0_pay6 v0 v2 v4 acc.2
            (View.readAt (Elt F) arg2.view (Rect.unit (s := S8192x256) (k0_off1 k) S1024x256.size (k0_off1_inb k)).toLoadRect X2)
            (View.readAt (Elt F) arg4.view (Rect.unit (s := S1x8192) (k0_off2 k) S1x1024.size (k0_off2_inb k)).toLoadRect X4)
            (View.readAt (Elt F) arg6.view (Rect.unit (s := S1x8192) (k0_off2 k) S1x1024.size (k0_off2_inb k)).toLoadRect X6)) := by
  unfold tripR_k0_t1 trip_k0_t1; rfl

/-- The chunk of rows a trip loads, read at `(q, k')`: row `1024·n + q` of the whole array. -/
theorem load_rows_apply (arg2 : Memref sig .tc .vmem S8192x256 .bf16) (harg2 : arg2.IsWhole) (x1 : Vec F S8192x256 .bf16)
    (n : ℕ) (hn : n < k0_t1_loop.trips) (q : Fin 1024) (k' : Fin 256) (h : 1024 * n + q.val < 8192) :
    View.readAt (Elt F) arg2.view
        (Rect.unit (s := S8192x256) (k0_off1 ⟨n, hn⟩) S1024x256.size (k0_off1_inb ⟨n, hn⟩)).toLoadRect (harg2.unread x1) (ix2 q k')
      = x1 (ix2 (⟨1024 * n + q.val, h⟩ : Fin 8192) k') := by
  rw [View.readAt_eq_ld, harg2.read_unread]
  show x1 ((Rect.unit (s := S8192x256) (k0_off1 ⟨n, hn⟩) S1024x256.size (k0_off1_inb ⟨n, hn⟩)).emb (ix2 q k')) = _
  congr 1; funext a; apply Fin.ext; rw [Rect.emb_apply]
  match a with
  | ⟨0, _⟩ => simp [Rect.unit, k0_off1_eq ⟨n, hn⟩]
  | ⟨1, _⟩ => simp [Rect.unit, k0_off1_eq ⟨n, hn⟩]

/-- The chunk of a one-row array a trip loads, read at `(0, q)`: column `1024·n + q` of the whole row. -/
theorem load_cols_apply {e : EltTy} (arg : Memref sig .tc .vmem S1x8192 e) (harg : arg.IsWhole) (x : Vec F S1x8192 e)
    (n : ℕ) (hn : n < k0_t1_loop.trips) (q : Fin 1024) (h : 1024 * n + q.val < 8192) :
    View.readAt (Elt F) arg.view
        (Rect.unit (s := S1x8192) (k0_off2 ⟨n, hn⟩) S1x1024.size (k0_off2_inb ⟨n, hn⟩)).toLoadRect (harg.unread x) (ix2 (0 : Fin 1) q)
      = x (ix2 (0 : Fin 1) (⟨1024 * n + q.val, h⟩ : Fin 8192)) := by
  rw [View.readAt_eq_ld, harg.read_unread]
  show x ((Rect.unit (s := S1x8192) (k0_off2 ⟨n, hn⟩) S1x1024.size (k0_off2_inb ⟨n, hn⟩)).emb (ix2 (0 : Fin 1) q)) = _
  congr 1; funext a; apply Fin.ext; rw [Rect.emb_apply]
  match a with
  | ⟨0, _⟩ => simp [Rect.unit, k0_off2_eq ⟨n, hn⟩]
  | ⟨1, _⟩ => simp [Rect.unit, k0_off2_eq ⟨n, hn⟩]

end Trip

/-! ## The squared distances, and the two running values over an initial segment of the columns -/

section Segment
variable (x0 : Vec Ideal S1024x256 .bf16) (x1 : Vec Ideal S8192x256 .bf16) (x2 : Vec Ideal S1024x1 .f32)
  (x3 : Vec Ideal S1x8192 .f32) (x4 : Vec Ideal S1024x1 .i32) (x5 : Vec Ideal S1x8192 .i32) (r : Fin 1024)

/-- The squared distance of tile row `r` and column `j`. -/
def dist (j : Fin 8192) : EReal :=
  (x2 (ix2 r (0 : Fin 1)) + x3 (ix2 (0 : Fin 1) j)) - Cert.HardMining.two * ∑ k : Fin 256, x0 (ix2 r k) * x1 (ix2 j k)

/-- Column `j`'s entry in row `r`'s maximum: the distance on a column of the same label, `⊥` on another; -/
def posAt (j : Fin 8192) : EReal :=
  if x4 (ix2 r (0 : Fin 1)) = x5 (ix2 (0 : Fin 1) j) then dist x0 x1 x2 x3 r j else ⊥
/-- and in its minimum: `⊤` on a column of the same label, the distance on another. -/
def negAt (j : Fin 8192) : EReal :=
  if x4 (ix2 r (0 : Fin 1)) = x5 (ix2 (0 : Fin 1) j) then ⊤ else dist x0 x1 x2 x3 r j

/-- The two extended to every natural number by the neutral values. -/
def fpos (j : ℕ) : EReal := if h : j < 8192 then posAt x0 x1 x2 x3 x4 x5 r ⟨j, h⟩ else ⊥
def fneg (j : ℕ) : EReal := if h : j < 8192 then negAt x0 x1 x2 x3 x4 x5 r ⟨j, h⟩ else ⊤

/-- A trip joins its chunk to the maximum: if the chunk's loads read the arrays at the offset `1024·n` and the value
    carried in is the supremum over the columns below `1024·n`, the value carried out is the supremum over the columns
    below `1024·(n+1)`. -/
theorem chunk_pos (n : ℕ) (hn : n < 8) (L2 : Vec Ideal S1024x256 .bf16) (L4 : Vec Ideal S1x1024 .f32)
    (L6 : Vec Ideal S1x1024 .i32)
    (h2 : ∀ (q : Fin 1024) (k' : Fin 256) (h : 1024 * n + q.val < 8192),
      L2 (ix2 q k') = x1 (ix2 (⟨1024 * n + q.val, h⟩ : Fin 8192) k'))
    (h4 : ∀ (q : Fin 1024) (h : 1024 * n + q.val < 8192),
      L4 (ix2 (0 : Fin 1) q) = x3 (ix2 (0 : Fin 1) (⟨1024 * n + q.val, h⟩ : Fin 8192)))
    (h6 : ∀ (q : Fin 1024) (h : 1024 * n + q.val < 8192),
      L6 (ix2 (0 : Fin 1) q) = x5 (ix2 (0 : Fin 1) (⟨1024 * n + q.val, h⟩ : Fin 8192)))
    (a : EReal) (ha : a = (Finset.range (1024 * n)).sup (fpos x0 x1 x2 x3 x4 x5 r)) :
    max a (Finset.univ.sup fun q : Fin 1024 =>
        if x4 (ix2 r (0 : Fin 1)) = L6 (ix2 (0 : Fin 1) q) then
          (x2 (ix2 r (0 : Fin 1)) + L4 (ix2 (0 : Fin 1) q))
            - Cert.HardMining.two * ∑ k : Fin 256, x0 (ix2 r k) * L2 (ix2 q k)
        else ⊥)
      = (Finset.range (1024 * (n + 1))).sup (fpos x0 x1 x2 x3 x4 x5 r) := by
  rw [Cert.Chunks.sup_range_chunk, ha]
  refine congrArg (max _) (Finset.sup_congr rfl fun q _ => ?_)
  have hq : 1024 * n + q.val < 8192 := by have := q.isLt; omega
  unfold fpos
  rw [dif_pos hq]
  unfold posAt dist
  rw [h6 q hq, h4 q hq]
  simp only [h2 q _ hq]

/-- A trip joins its chunk to the minimum likewise. -/
theorem chunk_neg (n : ℕ) (hn : n < 8) (L2 : Vec Ideal S1024x256 .bf16) (L4 : Vec Ideal S1x1024 .f32)
    (L6 : Vec Ideal S1x1024 .i32)
    (h2 : ∀ (q : Fin 1024) (k' : Fin 256) (h : 1024 * n + q.val < 8192),
      L2 (ix2 q k') = x1 (ix2 (⟨1024 * n + q.val, h⟩ : Fin 8192) k'))
    (h4 : ∀ (q : Fin 1024) (h : 1024 * n + q.val < 8192),
      L4 (ix2 (0 : Fin 1) q) = x3 (ix2 (0 : Fin 1) (⟨1024 * n + q.val, h⟩ : Fin 8192)))
    (h6 : ∀ (q : Fin 1024) (h : 1024 * n + q.val < 8192),
      L6 (ix2 (0 : Fin 1) q) = x5 (ix2 (0 : Fin 1) (⟨1024 * n + q.val, h⟩ : Fin 8192)))
    (a : EReal) (ha : a = (Finset.range (1024 * n)).inf (fneg x0 x1 x2 x3 x4 x5 r)) :
    min a (Finset.univ.inf fun q : Fin 1024 =>
        if x4 (ix2 r (0 : Fin 1)) = L6 (ix2 (0 : Fin 1) q) then ⊤
        else
          (x2 (ix2 r (0 : Fin 1)) + L4 (ix2 (0 : Fin 1) q))
            - Cert.HardMining.two * ∑ k : Fin 256, x0 (ix2 r k) * L2 (ix2 q k))
      = (Finset.range (1024 * (n + 1))).inf (fneg x0 x1 x2 x3 x4 x5 r) := by
  rw [Cert.Chunks.inf_range_chunk, ha]
  refine congrArg (min _) (Finset.inf_congr rfl fun q _ => ?_)
  have hq : 1024 * n + q.val < 8192 := by have := q.isLt; omega
  unfold fneg
  rw [dif_pos hq]
  unfold negAt dist
  rw [h6 q hq, h4 q hq]
  simp only [h2 q _ hq]

end Segment

/-! ## The carried pair before each trip, and after the last -/

/-- The carried pair is the loop's recursion from the contents of the six input buffers: the three whole-tile loads
    read the tile's contents. -/
theorem carried_eq_st (c : Dev nD) (i : grid0.Coords)
    (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec Ideal S1024x256 .bf16) (x1 : Vec Ideal S8192x256 .bf16) (x2 : Vec Ideal S1024x1 .f32) (x3 : Vec Ideal S1x8192 .f32)
    (x4 : Vec Ideal S1024x1 .i32) (x5 : Vec Ideal S1x8192 .i32) :
    carried (F := Ideal) c i arg1 harg1 arg2 harg2 arg3 harg3 arg4 harg4 arg5 harg5 arg6 harg6 arg7 harg7 x0 x1 x2 x3 x4 x5
      = st_k0_t1 (F := Ideal) Variants.none c none i arg1 harg1 arg2 harg2 arg3 harg3 arg4 harg4 arg5 harg5 arg6 harg6 arg7 harg7 x0 x2 x4 (harg2.unread x1) (harg4.unread x3) (harg6.unread x5) (k0_pay1, k0_pay2) k0_t1_loop.trips := by
  unfold carried
  rw [readAt_whole arg1 harg1, readAt_whole arg3 harg3, readAt_whole arg5 harg5]

/-- Before trip `n` the carried maximum at row `r` is the supremum over the columns below `1024·n`, and the carried
    minimum the infimum over them. -/
theorem st_segment (c : Dev nD) (i : grid0.Coords)
    (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec Ideal S1024x256 .bf16) (x1 : Vec Ideal S8192x256 .bf16) (x2 : Vec Ideal S1024x1 .f32) (x3 : Vec Ideal S1x8192 .f32)
    (x4 : Vec Ideal S1024x1 .i32) (x5 : Vec Ideal S1x8192 .i32) (r : Fin 1024) (n : ℕ) (hn : n ≤ 8) :
    (st_k0_t1 (F := Ideal) Variants.none c none i arg1 harg1 arg2 harg2 arg3 harg3 arg4 harg4 arg5 harg5 arg6 harg6 arg7 harg7 x0 x2 x4 (harg2.unread x1) (harg4.unread x3) (harg6.unread x5) (k0_pay1, k0_pay2) n).1 (ix2 r (0 : Fin 1))
        = (Finset.range (1024 * n)).sup (fpos x0 x1 x2 x3 x4 x5 r)
    ∧ (st_k0_t1 (F := Ideal) Variants.none c none i arg1 harg1 arg2 harg2 arg3 harg3 arg4 harg4 arg5 harg5 arg6 harg6 arg7 harg7 x0 x2 x4 (harg2.unread x1) (harg4.unread x3) (harg6.unread x5) (k0_pay1, k0_pay2) n).2 (ix2 r (0 : Fin 1))
        = (Finset.range (1024 * n)).inf (fneg x0 x1 x2 x3 x4 x5 r) := by
  induction n with
  | zero =>
    constructor
    · show k0_pay1 (F := Ideal) (ix2 r (0 : Fin 1)) = _
      rw [Cert.Payload.pay1_apply, Nat.mul_zero, Finset.range_zero, Finset.sup_empty]
    · show k0_pay2 (F := Ideal) (ix2 r (0 : Fin 1)) = _
      rw [Cert.Payload.pay2_apply, Nat.mul_zero, Finset.range_zero, Finset.inf_empty]
  | succ n ih =>
    obtain ⟨ih1, ih2⟩ := ih (by omega)
    have hn8 : n < 8 := by omega
    have hn' : n < k0_t1_loop.trips := by rw [trips_eq]; exact hn8
    have hs : st_k0_t1 (F := Ideal) Variants.none c none i arg1 harg1 arg2 harg2 arg3 harg3 arg4 harg4 arg5 harg5 arg6 harg6 arg7 harg7 x0 x2 x4 (harg2.unread x1) (harg4.unread x3) (harg6.unread x5) (k0_pay1, k0_pay2) (n + 1)
        = tripR_k0_t1 (F := Ideal) Variants.none c none i arg1 harg1 arg2 harg2 arg3 harg3 arg4 harg4 arg5 harg5 arg6 harg6 arg7 harg7 x0 x2 x4 (harg2.unread x1) (harg4.unread x3) (harg6.unread x5) ⟨n, hn'⟩
            (st_k0_t1 (F := Ideal) Variants.none c none i arg1 harg1 arg2 harg2 arg3 harg3 arg4 harg4 arg5 harg5 arg6 harg6 arg7 harg7 x0 x2 x4 (harg2.unread x1) (harg4.unread x3) (harg6.unread x5) (k0_pay1, k0_pay2) n) :=
      st_k0_t1_succ (F := Ideal) Variants.none c none i arg1 harg1 arg2 harg2 arg3 harg3 arg4 harg4 arg5 harg5 arg6 harg6 arg7 harg7 x0 x2 x4 (harg2.unread x1) (harg4.unread x3) (harg6.unread x5) (k0_pay1, k0_pay2) ⟨n, hn'⟩
    rw [hs, tripR_eq]
    constructor
    · refine (Cert.Payload.pay5_apply _ _ _ _ _ _ _ r).trans ?_
      exact chunk_pos x0 x1 x2 x3 x4 x5 r n hn8 _ _ _
        (fun q k' h => load_rows_apply arg2 harg2 x1 n hn' q k' h)
        (fun q h => load_cols_apply arg4 harg4 x3 n hn' q h)
        (fun q h => load_cols_apply arg6 harg6 x5 n hn' q h) _ ih1
    · refine (Cert.Payload.pay6_apply _ _ _ _ _ _ _ r).trans ?_
      exact chunk_neg x0 x1 x2 x3 x4 x5 r n hn8 _ _ _
        (fun q k' h => load_rows_apply arg2 harg2 x1 n hn' q k' h)
        (fun q h => load_cols_apply arg4 harg4 x3 n hn' q h)
        (fun q h => load_cols_apply arg6 harg6 x5 n hn' q h) _ ih2

/-- The carried maximum after the eight trips, at tile row `r`: the largest squared distance to a column of the same
    label, over all 8192 columns. -/
theorem carried_pos (c : Dev nD) (i : grid0.Coords)
    (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec Ideal S1024x256 .bf16) (x1 : Vec Ideal S8192x256 .bf16) (x2 : Vec Ideal S1024x1 .f32) (x3 : Vec Ideal S1x8192 .f32)
    (x4 : Vec Ideal S1024x1 .i32) (x5 : Vec Ideal S1x8192 .i32) (r : Fin 1024) :
    (carried (F := Ideal) c i arg1 harg1 arg2 harg2 arg3 harg3 arg4 harg4 arg5 harg5 arg6 harg6 arg7 harg7 x0 x1 x2 x3 x4 x5).1 (ix2 r (0 : Fin 1))
      = Finset.univ.sup fun j : Fin 8192 =>
          if x4 (ix2 r (0 : Fin 1)) = x5 (ix2 (0 : Fin 1) j) then
            (x2 (ix2 r (0 : Fin 1)) + x3 (ix2 (0 : Fin 1) j))
              - Cert.HardMining.two * ∑ k : Fin 256, x0 (ix2 r k) * x1 (ix2 j k)
          else ⊥ := by
  rw [carried_eq_st, trips_eq]
  refine (st_segment c i arg1 harg1 arg2 harg2 arg3 harg3 arg4 harg4 arg5 harg5 arg6 harg6 arg7 harg7 x0 x1 x2 x3 x4 x5 r 8 le_rfl).1.trans ?_
  exact Cert.Chunks.sup_range_eq_univ 8192 (posAt x0 x1 x2 x3 x4 x5 r)

/-- The carried minimum after the eight trips, at tile row `r`: the smallest squared distance to a column of another
    label, over all 8192 columns. -/
theorem carried_neg (c : Dev nD) (i : grid0.Coords)
    (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec Ideal S1024x256 .bf16) (x1 : Vec Ideal S8192x256 .bf16) (x2 : Vec Ideal S1024x1 .f32) (x3 : Vec Ideal S1x8192 .f32)
    (x4 : Vec Ideal S1024x1 .i32) (x5 : Vec Ideal S1x8192 .i32) (r : Fin 1024) :
    (carried (F := Ideal) c i arg1 harg1 arg2 harg2 arg3 harg3 arg4 harg4 arg5 harg5 arg6 harg6 arg7 harg7 x0 x1 x2 x3 x4 x5).2 (ix2 r (0 : Fin 1))
      = Finset.univ.inf fun j : Fin 8192 =>
          if x4 (ix2 r (0 : Fin 1)) = x5 (ix2 (0 : Fin 1) j) then ⊤
          else
            (x2 (ix2 r (0 : Fin 1)) + x3 (ix2 (0 : Fin 1) j))
              - Cert.HardMining.two * ∑ k : Fin 256, x0 (ix2 r k) * x1 (ix2 j k) := by
  rw [carried_eq_st, trips_eq]
  refine (st_segment c i arg1 harg1 arg2 harg2 arg3 harg3 arg4 harg4 arg5 harg5 arg6 harg6 arg7 harg7 x0 x1 x2 x3 x4 x5 r 8 le_rfl).2.trans ?_
  exact Cert.Chunks.inf_range_eq_univ 8192 (negAt x0 x1 x2 x3 x4 x5 r)

end Cert.KernelIdeal.Carried

end
-- ==== Proof.KIValue.lean ====
/-
  The value of the idealized kernel: what its result buffer holds when @main returns, as the batch-hard margin loss of the
  normalised rows.

  Grid point `t` is handed rows `1024·t …` of the normalised matrix with their squared norms and labels, and the whole
  matrix with all squared norms and labels; it writes back the 1024 losses of its rows. The eight tiles fill the array
  of 8192 losses, which the host operations after the region sum and divide by 8192.
-/
import proofs.«165385_j16406775070902_2_alg».proof.Proof.KIRun
import proofs.«165385_j16406775070902_2_alg».proof.Proof.HardMining
import Idealize.ShloMosaic.Lib.ValueIdx
import Idealize.ShloMosaic.Lib.Pipeline.Value
import Idealize.ShloMosaic.PureOps.Ideal.Laws
import Idealize.ShloMosaic.Lib.StableHlo.Run
import proofs.«165385_j16406775070902_2_alg».proof.Proof.Payload
import proofs.«165385_j16406775070902_2_alg».proof.Proof.KIPrefix
import proofs.«165385_j16406775070902_2_alg».proof.Proof.RefSide
import proofs.«165385_j16406775070902_2_alg».proof.Proof.KICarried

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable {F : FTy → Type} [FloatOps F]
variable (m : (ℓ : Loc nD τ sig) → Buf (Elt F) ℓ) (ρ : Dev nD → PrngReg)

/-! ## The windows' blocks, read at an index -/

/-- The printed index maps over the grid: the three row-tile windows and the output move with the point along the rows,
    the three whole-array windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 8 := by have h : cfg0.N = 8 := N_0; have := t.isLt; omega

theorem iblk0_apply (c : Dev nD) (t : Fin cfg0.N) (a : Fin 1024) (b : Fin 256) (h : 1024 * t.val + a.val < 8192) :
    iblk m ρ c 0 t (ix2 a b) = V m ρ c main_v9 (ix2 (⟨1024 * t.val + a.val, h⟩ : Fin 8192) b) := by
  obtain ⟨e0_0, e0_1, e1_0, e1_1, e2_0, e2_1, e3_0, e3_1, e4_0, e4_1, e5_0, e5_1, e6_0, e6_1⟩ := idx_facts t
  show V m ρ c main_v9 (((cfg0.win 0).blk t).view.emb (ix2 a b)) = _
  congr 1
  funext d; apply Fin.ext
  match d with
  | ⟨0, _⟩ => show win0_0.index t (0 : Fin 2) * 1024 + 1 * a.val = 1024 * t.val + a.val; omega
  | ⟨1, _⟩ => show win0_0.index t (1 : Fin 2) * 256 + 1 * b.val = b.val; omega

theorem iblk1_apply (c : Dev nD) (t : Fin cfg0.N) (a : Fin 8192) (b : Fin 256) :
    iblk m ρ c 1 t (ix2 a b) = V m ρ c main_v9 (ix2 a b) := by
  obtain ⟨e0_0, e0_1, e1_0, e1_1, e2_0, e2_1, e3_0, e3_1, e4_0, e4_1, e5_0, e5_1, e6_0, e6_1⟩ := idx_facts t
  show V m ρ c main_v9 (((cfg0.win 1).blk t).view.emb (ix2 a b)) = _
  congr 1
  funext d; apply Fin.ext
  match d with
  | ⟨0, _⟩ => show win0_1.index t (0 : Fin 2) * 8192 + 1 * a.val = a.val; omega
  | ⟨1, _⟩ => show win0_1.index t (1 : Fin 2) * 256 + 1 * b.val = b.val; omega

theorem iblk2_apply (c : Dev nD) (t : Fin cfg0.N) (a : Fin 1024) (b : Fin 1) (h : 1024 * t.val + a.val < 8192) :
    iblk m ρ c 2 t (ix2 a b) = V m ρ c main_v8 (ix2 (⟨1024 * t.val + a.val, h⟩ : Fin 8192) b) := by
  obtain ⟨e0_0, e0_1, e1_0, e1_1, e2_0, e2_1, e3_0, e3_1, e4_0, e4_1, e5_0, e5_1, e6_0, e6_1⟩ := idx_facts t
  show V m ρ c main_v8 (((cfg0.win 2).blk t).view.emb (ix2 a b)) = _
  congr 1
  funext d; apply Fin.ext
  match d with
  | ⟨0, _⟩ => show win0_2.index t (0 : Fin 2) * 1024 + 1 * a.val = 1024 * t.val + a.val; omega
  | ⟨1, _⟩ => show win0_2.index t (1 : Fin 2) * 1 + 1 * b.val = b.val; omega

theorem iblk3_apply (c : Dev nD) (t : Fin cfg0.N) (a : Fin 1) (b : Fin 8192) :
    iblk m ρ c 3 t (ix2 a b) = V m ρ c main_v10 (ix2 a b) := by
  obtain ⟨e0_0, e0_1, e1_0, e1_1, e2_0, e2_1, e3_0, e3_1, e4_0, e4_1, e5_0, e5_1, e6_0, e6_1⟩ := idx_facts t
  show V m ρ c main_v10 (((cfg0.win 3).blk t).view.emb (ix2 a b)) = _
  congr 1
  funext d; apply Fin.ext
  match d with
  | ⟨0, _⟩ => show win0_3.index t (0 : Fin 2) * 1 + 1 * a.val = a.val; omega
  | ⟨1, _⟩ => show win0_3.index t (1 : Fin 2) * 8192 + 1 * b.val = b.val; omega

theorem iblk4_apply (c : Dev nD) (t : Fin cfg0.N) (a : Fin 1024) (b : Fin 1) (h : 1024 * t.val + a.val < 8192) :
    iblk m ρ c 4 t (ix2 a b) = V m ρ c main_v11 (ix2 (⟨1024 * t.val + a.val, h⟩ : Fin 8192) b) := by
  obtain ⟨e0_0, e0_1, e1_0, e1_1, e2_0, e2_1, e3_0, e3_1, e4_0, e4_1, e5_0, e5_1, e6_0, e6_1⟩ := idx_facts t
  show V m ρ c main_v11 (((cfg0.win 4).blk t).view.emb (ix2 a b)) = _
  congr 1
  funext d; apply Fin.ext
  match d with
  | ⟨0, _⟩ => show win0_4.index t (0 : Fin 2) * 1024 + 1 * a.val = 1024 * t.val + a.val; omega
  | ⟨1, _⟩ => show win0_4.index t (1 : Fin 2) * 1 + 1 * b.val = b.val; omega

theorem iblk5_apply (c : Dev nD) (t : Fin cfg0.N) (a : Fin 1) (b : Fin 8192) :
    iblk m ρ c 5 t (ix2 a b) = V m ρ c main_v12 (ix2 a b) := by
  obtain ⟨e0_0, e0_1, e1_0, e1_1, e2_0, e2_1, e3_0, e3_1, e4_0, e4_1, e5_0, e5_1, e6_0, e6_1⟩ := idx_facts t
  show V m ρ c main_v12 (((cfg0.win 5).blk t).view.emb (ix2 a b)) = _
  congr 1
  funext d; apply Fin.ext
  match d with
  | ⟨0, _⟩ => show win0_5.index t (0 : Fin 2) * 1 + 1 * a.val = a.val; omega
  | ⟨1, _⟩ => show win0_5.index t (1 : Fin 2) * 8192 + 1 * b.val = b.val; omega

/-! ## The output tiles fill the array of losses -/

/-- An index of the array is in point `t`'s block iff its row is among the point's 1024. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v13).slice (win0_6.rect t)).set ↔ _
  rw [View.set_slice_whole, Rect.mem_set_unit]
  exact Iff.rfl

/-- Every row is in some point's tile: row `p` in point `p / 1024`'s. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  let t : Fin cfg0.N := ⟨(i 0).val / 1024, by rw [show cfg0.N = 8 from N_0]; omega⟩
  obtain ⟨e0_0, e0_1, e1_0, e1_1, e2_0, e2_1, e3_0, e3_1, e4_0, e4_1, e5_0, e5_1, e6_0, e6_1⟩ := idx_facts t
  refine ⟨t, flush0_6 t, ?_⟩
  rw [mem_blk6]
  intro a
  have ht : t.val = (i 0).val / 1024 := rfl
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

/-! ## The host operations after the region -/

/-- A quotient of rank-0 arrays, read at the one index. -/
theorem hostDivf_at (A B : FVec Ideal S_ .f32) (z : S_.Idx) : Host.divf (F := Ideal) (φ := .f32) A B z = Ideal.div (A z) (B z) := rfl

/-- The mean of an [8192,1] array: the initial zero plus the sum over its rows, divided by the count. -/
theorem mean_apply (G : S8192x1.Idx → EReal) (z : S_.Idx) :
    Host.divf (F := Ideal) (Host.reduceAdd (F := Ideal) G (constant (F := Ideal) S_ .f32 0x00000000#32) reducesTo_S8192x1_S_d0_1 h_S_)
        (constant (F := Ideal) S_ .f32 0x46000000#32) z
      = Ideal.div (Cert.HardMining.zero + ∑ p : Fin 8192, G (ix2 p (0 : Fin 1))) Cert.HardMining.count := by
  have h1 : Host.reduceAdd (F := Ideal) G (constant (F := Ideal) S_ .f32 0x00000000#32) reducesTo_S8192x1_S_d0_1 h_S_ z
      = Cert.HardMining.zero + ∑ i : S8192x1.Idx, G i := by
    simp only [Host.reduceAdd, Ideal.hostReduceAdd_def]
    exact Ideal.hostReduceAdd_total reducesTo_S8192x1_S_d0_1 (fun b => b.elim0) G _ z
  rw [hostDivf_at, h1, sum_idx2 G]
  have h2 : (∑ a : Fin 8192, ∑ b : Fin 1, G (ix2 a b)) = ∑ p : Fin 8192, G (ix2 p (0 : Fin 1)) :=
    Finset.sum_congr rfl fun p _ => Fin.sum_univ_one _
  rw [h2]
  rfl

section Tail
variable (m : (ℓ : Loc nD τ sig) → Buf (Elt Ideal) ℓ) (ρ : Dev nD → PrngReg)

/-- The result when @main returns: the sum of the array of losses, divided by the count. -/
theorem Wfin_v15 (c : Dev nD) :
    (Wfin m ρ c (Proc.devRef .tc main_v15) : S_.Idx → EReal)
      = Host.divf (F := Ideal) (Host.reduceAdd (F := Ideal) (V₁ m ρ c (Proc.devRef .tc main_v13)) (constant (F := Ideal) S_ .f32 0x00000000#32) reducesTo_S8192x1_S_d0_1 h_S_)
          (constant (F := Ideal) S_ .f32 0x46000000#32) := by
  unfold Wfin
  show StableHlo.after hostOps1 _ (Proc.devRef .tc main_v15) = _
  after_results

end Tail

/-! ## The output tile at a row -/

theorem hz2 : (![0, 0] : Fin 2 → Nat) = fun _ => 0 := funext fun a => by fin_cases a <;> rfl

/-- Row `r` of the tile the body stores: the row's loss from the clipped largest same-label and smallest other-label
    distances over all 8192 columns. -/
theorem out_apply (c : Dev nD) (i : grid0.Coords) (arg1 : Memref sig .tc .vmem S1024x256 .bf16) (harg1 : arg1.IsWhole) (arg2 : Memref sig .tc .vmem S8192x256 .bf16) (harg2 : arg2.IsWhole)
    (arg3 : Memref sig .tc .vmem S1024x1 .f32) (harg3 : arg3.IsWhole) (arg4 : Memref sig .tc .vmem S1x8192 .f32) (harg4 : arg4.IsWhole)
    (arg5 : Memref sig .tc .vmem S1024x1 .i32) (harg5 : arg5.IsWhole) (arg6 : Memref sig .tc .vmem S1x8192 .i32) (harg6 : arg6.IsWhole)
    (arg7 : Memref sig .tc .vmem S1024x1 .f32) (harg7 : arg7.IsWhole)
    (x0 : Vec Ideal S1024x256 .bf16) (x1 : Vec Ideal S8192x256 .bf16) (x2 : Vec Ideal S1024x1 .f32) (x3 : Vec Ideal S1x8192 .f32)
    (x4 : Vec Ideal S1024x1 .i32) (x5 : Vec Ideal S1x8192 .i32) (r : Fin 1024) :
    out0_6 (F := Ideal) c i arg1 harg1 arg2 harg2 arg3 harg3 arg4 harg4 arg5 harg5 arg6 harg6 arg7 harg7 x0 x1 x2 x3 x4 x5 (ix2 r (0 : Fin 1))
      = Cert.HardMining.rowLoss
          (max (Finset.univ.sup fun j : Fin 8192 => if x4 (ix2 r (0 : Fin 1)) = x5 (ix2 (0 : Fin 1) j) then (x2 (ix2 r (0 : Fin 1)) + x3 (ix2 (0 : Fin 1) j)) - Cert.HardMining.two * ∑ k : Fin 256, x0 (ix2 r k) * x1 (ix2 j k) else ⊥) Cert.HardMining.eps)
          (max (Finset.univ.inf fun j : Fin 8192 => if x4 (ix2 r (0 : Fin 1)) = x5 (ix2 (0 : Fin 1) j) then ⊤ else (x2 (ix2 r (0 : Fin 1)) + x3 (ix2 (0 : Fin 1) j)) - Cert.HardMining.two * ∑ k : Fin 256, x0 (ix2 r k) * x1 (ix2 j k)) Cert.HardMining.eps) := by
  unfold out0_6
  rw [View.canon_unit_zero hz2, Cert.Payload.pay7_apply, Cert.KernelIdeal.Carried.carried_pos, Cert.KernelIdeal.Carried.carried_neg]

section Value
variable (m : (ℓ : Loc nD τ sig) → Buf (Elt Ideal) ℓ) (ρ : Dev nD → PrngReg)

/-- Row `p`'s loss, from the normalised rows, their squared norms and the labels as the reference's stages name them. -/
def lossRow (c : Dev nD) (p : Fin 8192) : EReal :=
  Cert.HardMining.rowLoss
    (Cert.HardMining.kerPos (Cert.RefSide.vsOf (m ((c : Thread nD τ).loc main_arg0))) (Cert.RefSide.sqOf (m ((c : Thread nD τ).loc main_arg0))) (Cert.RefSide.tgOf (m ((c : Thread nD τ).loc main_arg1))) p)
    (Cert.HardMining.kerNeg (Cert.RefSide.vsOf (m ((c : Thread nD τ).loc main_arg0))) (Cert.RefSide.sqOf (m ((c : Thread nD τ).loc main_arg0))) (Cert.RefSide.tgOf (m ((c : Thread nD τ).loc main_arg1))) p)

/-- The array of the 8192 rows' losses. -/
def lossArr (c : Dev nD) : S8192x1.Idx → EReal := fun i => lossRow m c (i 0)

/-- WHAT POINT `t` WRITES BACK is tile `t` of the array of losses. -/
theorem flushed6_eq (c : Dev nD) (t : Fin cfg0.N) :
    (dats m ρ 0 c).flushed 6 t = ((cfg0.win 6).blk t).view.read (Elt Ideal) (lossArr m c) := by
  obtain ⟨e0_0, e0_1, e1_0, e1_1, e2_0, e2_1, e3_0, e3_1, e4_0, e4_1, e5_0, e5_1, e6_0, e6_1⟩ := idx_facts t
  have ht := t_lt t
  show (cfg0.win 6).cut (grid0.coords t) ((dats m ρ 0 c).after 6 t) = _
  rw [after0_6]
  funext y
  obtain ⟨r, rfl⟩ : ∃ r : Fin 1024, y = ix2 r (0 : Fin 1) := ⟨y 0, (eq_ix2 y).trans (congrArg (ix2 (y 0)) (Fin.eq_zero (y 1)))⟩
  have hr : 1024 * t.val + r.val < 8192 := by have := r.isLt; omega
  have hemb : ((cfg0.win 6).blk t).view.emb (ix2 r (0 : Fin 1)) = ix2 (⟨1024 * t.val + r.val, hr⟩ : Fin 8192) (0 : Fin 1) := by
    funext d; apply Fin.ext
    match d with
    | ⟨0, _⟩ => show win0_6.index t (0 : Fin 2) * 1024 + 1 * r.val = 1024 * t.val + r.val; omega
    | ⟨1, _⟩ => show win0_6.index t (1 : Fin 2) * 1 + 1 * 0 = 0; omega
  show out0_6 (F := Ideal) c (grid0.coords t) _ _ _ _ _ _ _ _ _ _ _ _ _ _ _ _ _ _ _ _ (ix2 r (0 : Fin 1)) = lossArr m c (((cfg0.win 6).blk t).view.emb (ix2 r (0 : Fin 1)))
  rw [hemb, out_apply]
  show _ = lossRow m c ⟨1024 * t.val + r.val, hr⟩
  unfold lossRow Cert.HardMining.kerPos Cert.HardMining.kerNeg Cert.HardMining.dist Cert.RefSide.vsOf Cert.RefSide.sqOf Cert.RefSide.tgOf
  simp only [fun k => iblk0_apply m ρ c t r k hr, iblk1_apply, iblk2_apply m ρ c t r (0 : Fin 1) hr, iblk3_apply, iblk4_apply m ρ c t r (0 : Fin 1) hr, iblk5_apply]
  have h9 := Cert.KernelIdeal.Prefix.v9_apply m ρ c
  have h8 := Cert.KernelIdeal.Prefix.v8_apply m ρ c
  have h10 := Cert.KernelIdeal.Prefix.v10_apply m ρ c
  have h11 := Cert.KernelIdeal.Prefix.v11_apply m ρ c
  have h12 := Cert.KernelIdeal.Prefix.v12_apply m ρ c
  simp only [h9, h8, h10, h11, h12]

/-- So the array of losses is what the region leaves in the result's buffer: the eight tiles fill it. -/
theorem final6 (c : Dev nD) : (dats m ρ 0 c).arrAt 6 cfg0.N = lossArr m c :=
  (dats m ρ 0 c).arrAt_eq_of_cover 6 (lossArr m c) (fun t _ => flushed6_eq m ρ c t) cover6

/-- THE VALUE: when @main returns its result is the mean of the rows' losses — with the clip applied to every distance,
    as the reference applies it, by the lattice laws of the specification. -/
theorem value (c : Dev nD) :
    (Wfin m ρ c (Proc.devRef .tc main_v15) : S_.Idx → EReal)
      = fun _ => Cert.HardMining.loss (fun p =>
          Cert.HardMining.rowLoss
            (Cert.HardMining.refPos (Cert.RefSide.vsOf (m ((c : Thread nD τ).loc main_arg0))) (Cert.RefSide.sqOf (m ((c : Thread nD τ).loc main_arg0))) (Cert.RefSide.tgOf (m ((c : Thread nD τ).loc main_arg1))) p)
            (Cert.HardMining.refNeg (Cert.RefSide.vsOf (m ((c : Thread nD τ).loc main_arg0))) (Cert.RefSide.sqOf (m ((c : Thread nD τ).loc main_arg0))) (Cert.RefSide.tgOf (m ((c : Thread nD τ).loc main_arg1))) p)) := by
  funext z
  rw [Wfin_v15, (V₁_out m ρ c).trans (final6 m ρ c), mean_apply]
  unfold Cert.HardMining.loss lossArr lossRow
  simp only [Cert.HardMining.kerPos_eq_refPos, Cert.HardMining.kerNeg_eq_refNeg]

end Value

end Cert.KernelIdeal.Hand

end
-- ==== Proof.lean ====
/-
  The certificate of a batch-hard margin loss.

  Both programs L2-normalise the 8192 rows of the input, take the squared distance of every pair of rows as
  `(‖i‖² + ‖j‖²) - 2·⟨i, j⟩`, and for every row the largest distance to a row of its own label and the smallest distance to
  a row of another label; the loss of a row is `max (pos - neg + margin) 0` and the result the mean over the rows. The
  reference clips every one of the 8192 × 8192 distances from below by `ε` before taking the maxima and minima; the kernel
  walks the distance matrix tile by tile without ever storing it, and clips once, after the maxima and minima are taken.
  Over the extended reals the two agree: clipping is monotone, so it commutes with a minimum, and with a maximum over a
  set that is not empty — every row has its own label.

  The kernel reads the matrix of normalised rows through two windows at once (a tile of rows, and the whole matrix), so
  the frame of either printed kernel is proved here against the launch of a list of segments, the shared array's ownership
  dealt between its two windows (Proof/KBody.lean, Proof/KRun.lean for the program as printed; Proof/KIBody.lean,
  Proof/KIRun.lean for its idealization, the same text at the other namespace). What the idealized kernel's result
  holds is read off that run in Proof/KIValue.lean (over Proof/Payload.lean, Proof/KICarried.lean, Proof/KIPrefix.lean,
  Proof/LibChunks.lean), what the reference's holds in Proof/RefSide.lean, both as the function of Proof/HardMining.lean.
-/
import proofs.«165385_j16406775070902_2_alg».proof.Defs
import proofs.«165385_j16406775070902_2_alg».proof.Proof.KRun
import proofs.«165385_j16406775070902_2_alg».proof.Proof.KIValue
import proofs.«165385_j16406775070902_2_alg».proof.Proof.Gen.Kernel
import proofs.«165385_j16406775070902_2_alg».proof.Proof.Gen.KernelIdeal
import proofs.«165385_j16406775070902_2_alg».proof.Proof.Gen.ReferenceIdeal
import proofs.«165385_j16406775070902_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The program as printed runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories agreeing on the arguments, the idealized kernel and the idealized reference end with the same
    result: each is the mean of the rows' losses, the clip before or after the maxima and minima. -/
theorem algebraic : Cert.algebraic_KernelIdeal_ReferenceIdeal := by
  intro m ρ m' ρ' _ hagree
  refine ⟨fun c => Cert.KernelIdeal.Hand.Wfin m ρ c (Proc.devRef .tc Cert.KernelIdeal.main_v15), ?_, ?_⟩
  · exact (θ_run Cert.KernelIdeal.defs _ _).mono
      (fun _ h c => ⟨(h c).2.2, (h c).1.trans (Cert.KernelIdeal.Hand.Wfin_arg m ρ c Cert.KernelIdeal.main_arg0 (.inl rfl)),
        (h c).2.1.trans (Cert.KernelIdeal.Hand.Wfin_arg m ρ c Cert.KernelIdeal.main_arg1 (.inr rfl))⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.RefSide.ref_value, (hagree c).1, (hagree c).2]
    exact (Cert.KernelIdeal.Hand.value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
